-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S1 : Shape := ⟨1, ![1]⟩
abbrev S8x4096 : Shape := ⟨2, ![8, 4096]⟩
abbrev S4096x8 : Shape := ⟨2, ![4096, 8]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S1 : S_.BroadcastsInDim S1 (![] : Fin 0 → Fin S1.rank)
  reducesTo_S1_S_d0 : S1.ReducesTo [0] S_
  bcast_S_S8x4096 : S_.BroadcastsInDim S8x4096 (![] : Fin 0 → Fin S8x4096.rank)
  reducesTo_S8x4096_S_d0_1 : S8x4096.ReducesTo [0, 1] S_
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_arg4 : FVec F S4096x8 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S4096x8 .f32 := Host.absf main_arg4
  let main_cst_6 : FVec F S_ .f32 := constant S_ .f32 0x7F800000#32
  let main_v20 : FVec F S4096x8 .f32 := broadcastInDim S4096x8 ![] bcast_S_S4096x8 main_cst_6
  let main_v21 : IVec S4096x8 1 := cmpf .olt main_v19 main_v20
  let main_c_7 : IVec S_ 1 := constantI S_ 1 1#1
  let main_v22 : IVec S_ 1 := (fun x v => Host.reduce IntOp.andi x v reducesTo_S4096x8_S_d0_1 h_S_) main_v21 main_c_7
  let main_v23 : IVec S_ 1 := andi main_v18 main_v22
  main_v23

def fn {F : FTy → Type} [FloatOps F] (main_arg0 : FVec F S4096x4096 .f32) (main_arg1 : FVec F S4096 .f32) (main_arg2 : FVec F S1 .f32) (main_arg3 : FVec F S8x4096 .f32) (main_arg4 : FVec F S4096x8 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg4 main_v13 main_v16
-- ==== Kernel.lean ====
abbrev S4096x4096 : Shape := ⟨2, ![4096, 4096]⟩
abbrev S4096 : Shape := ⟨1, ![4096]⟩
abbrev S1 : Shape := ⟨1, ![1]⟩
abbrev S8x4096 : Shape := ⟨2, ![8, 4096]⟩
abbrev S4096x8 : Shape := ⟨2, ![4096, 8]⟩
abbrev S_ : Shape := ⟨0, ![]⟩
abbrev S1x4096 : Shape := ⟨2, ![1, 4096]⟩
abbrev S8 : Shape := ⟨1, ![8]⟩
abbrev S1x8 : Shape := ⟨2, ![1, 8]⟩
abbrev S8x8 : Shape := ⟨2, ![8, 8]⟩
abbrev S1x1 : Shape := ⟨2, ![1, 1]⟩
abbrev S8x1x1 : Shape := ⟨3, ![8, 1, 1]⟩
abbrev S512x512 : Shape := ⟨2, ![512, 512]⟩
abbrev S1x1x1 : Shape := ⟨3, ![1, 1, 1]⟩
abbrev S512x8 : Shape := ⟨2, ![512, 8]⟩
abbrev S1x512 : Shape := ⟨2, ![1, 512]⟩
abbrev S512 : Shape := ⟨1, ![512]⟩
abbrev S512x1 : Shape := ⟨2, ![512, 1]⟩
abbrev S1x512x512 : Shape := ⟨3, ![1, 512, 512]⟩

abbrev nBuf : Space → Nat
  | .hbm => 41
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S1, .f32⟩
  | .hbm, ⟨3, _⟩ => ⟨S8x4096, .f32⟩
  | .hbm, ⟨4, _⟩ => ⟨S4096x8, .f32⟩
  | .hbm, ⟨5, _⟩ => ⟨S_, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S1x4096, .f32⟩
  | .hbm, ⟨11, _⟩ => ⟨S8x4096, .f32⟩
  | .hbm, ⟨12, _⟩ => ⟨S8x4096, .f32⟩
  | .hbm, ⟨13, _⟩ => ⟨S8x4096, .f32⟩
  | .hbm, ⟨14, _⟩ => ⟨S_, .f32⟩
  | .hbm, ⟨15, _⟩ => ⟨S4096, .f32⟩
  | .hbm, ⟨16, _⟩ => ⟨S1x4096, .f32⟩
  | .hbm, ⟨17, _⟩ => ⟨S8x4096, .f32⟩
  | .hbm, ⟨18, _⟩ => ⟨S8x4096, .f32⟩
  | .hbm, ⟨19, _⟩ => ⟨S_, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S1x8, .f32⟩
  | .hbm, ⟨25, _⟩ => ⟨S4096x8, .f32⟩
  | .hbm, ⟨26, _⟩ => ⟨S4096x8, .f32⟩
  | .hbm, ⟨27, _⟩ => ⟨S4096x8, .f32⟩
  | .hbm, ⟨28, _⟩ => ⟨S_, .f32⟩
  | .hbm, ⟨29, _⟩ => ⟨S8, .f32⟩
  | .hbm, ⟨30, _⟩ => ⟨S1x8, .f32⟩
  | .hbm, ⟨31, _⟩ => ⟨S4096x8, .f32⟩
  | .hbm, ⟨32, _⟩ => ⟨S4096x8, .f32⟩
  | .hbm, ⟨33, _⟩ => ⟨S8x8, .f32⟩
  | .hbm, ⟨34, _⟩ => ⟨S8x4096, .f32⟩
  | .hbm, ⟨35, _⟩ => ⟨S4096x8, .f32⟩
  | .hbm, ⟨36, _⟩ => ⟨S1x4096, .f32⟩
  | .hbm, ⟨37, _⟩ => ⟨S1x1, .f32⟩
  | .hbm, ⟨38, _⟩ => ⟨S8x1x1, .f32⟩
  | .hbm, ⟨39, _⟩ => ⟨S_, .f32⟩
  | .hbm, ⟨40, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S4096x8, .f32⟩
  | .local _ .vmem, ⟨3, _⟩ => ⟨S1x4096, .f32⟩
  | .local _ .vmem, ⟨4, _⟩ => ⟨S1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c512_i32 : BitVec 32 := 512#32
  let v3 : BitVec 32 := Scalar.muli arg0 c512_i32
  v3
def k0_mult2 (i : grid0.Coords) : BitVec 32 :=
  let arg1 : BitVec 32 := BitVec.ofNat 32 (i 1).val
  let c512_i32_1 : BitVec 32 := 512#32
  let v5 : BitVec 32 := Scalar.muli arg1 c512_i32_1
  v5
def k0_off1 (i : grid0.Coords) : Fin 2 → Nat :=
  let arg0 : BitVec 32 := BitVec.ofNat 32 (i 0).val
  let c512_i32 : BitVec 32 := 512#32
  let v3 : BitVec 32 := Scalar.muli arg0 c512_i32
  let v4 : BitVec 32 := v3
  let v7 : Index := Scalar.indexCast v4
  let c0 : Index := 0#32
  ![v7.toNat, 0]
def k0_off2 (i : grid0.Coords) : Fin 2 → Nat :=
  let arg1 : BitVec 32 := BitVec.ofNat 32 (i 1).val
  let c512_i32_1 : BitVec 32 := 512#32
  let v5 : BitVec 32 := Scalar.muli arg1 c512_i32_1
  let v6 : BitVec 32 := v5
  let v10 : Index := Scalar.indexCast v6
  let c0_2 : Index := 0#32
  ![v10.toNat, 0]
def k0_off3 (i : grid0.Coords) : Fin 2 → Nat :=
  let c0_3 : Index := 0#32
  let arg0 : BitVec 32 := BitVec.ofNat 32 (i 0).val
  let c512_i32 : BitVec 32 := 512#32
  let v3 : BitVec 32 := Scalar.muli arg0 c512_i32
  let v4 : BitVec 32 := v3
  let v13 : Index := Scalar.indexCast v4
  ![0, v13.toNat]
def k0_off4 (i : grid0.Coords) : Fin 2 → Nat :=
  let c0_4 : Index := 0#32
  let arg1 : BitVec 32 := BitVec.ofNat 32 (i 1).val
  let c512_i32_1 : BitVec 32 := 512#32
  let v5 : BitVec 32 := Scalar.muli arg1 c512_i32_1
  let v6 : BitVec 32 := v5
  let v16 : Index := Scalar.indexCast v6
  ![0, v16.toNat]
def k0_cond2 (i : grid0.Coords) : BitVec 1 :=
  let arg1 : BitVec 32 := BitVec.ofNat 32 (i 1).val
  let c7_i32 : BitVec 32 := 7#32
  let v171 : BitVec 1 := Scalar.cmpi .eq arg1 c7_i32
  let v172 : BitVec 32 := Scalar.extui v171
  let c0_i32_27 : BitVec 32 := 0#32
  let v173 : BitVec 1 := Scalar.cmpi .ne v172 c0_i32_27
  v173

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8x4096_S4096_d0 : S8x4096.ReducesTo [0] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8x4096_0_1 : S1x4096.BroadcastsInDim S8x4096 (![0, 1] : Fin 2 → Fin S8x4096.rank)
  reducesTo_S4096x8_S8_d0 : S4096x8.ReducesTo [0] S8
  bcast_S_S8 : S_.BroadcastsInDim S8 (![] : Fin 0 → Fin S8.rank)
  bcast_S8_S1x8_1 : S8.BroadcastsInDim S1x8 (![1] : Fin 1 → Fin S1x8.rank)
  bcast_S1x8_S4096x8_0_1 : S1x8.BroadcastsInDim S4096x8 (![0, 1] : Fin 2 → Fin S4096x8.rank)
  transposes_S8x4096_S4096x8_1_0 : S8x4096.Transposes [1, 0] S4096x8
  shapeCasts_S4096_S1x4096 : S4096.ShapeCasts S1x4096
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  h_S512x8 : 0 < S512x8.numel
  shapeCasts_S512x8_S512x8 : S512x8.ShapeCasts S512x8
  h_S1x512 : 0 < S1x512.numel
  shapeCasts_S1x512_S512 : S1x512.ShapeCasts S512
  inb_S512x512_S512x512_0_0 : ∀ a, (![0, 0] : Fin 2 → Nat) a + S512x512.size a ≤ S512x512.size a
  h_S512x512 : 0 < S512x512.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  slices_S512x8_o0_0_S512x1 : S512x8.Slices ![0, 0] S512x1
  shapeCasts_S512x1_S512 : S512x1.ShapeCasts S512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  slices_S512x8_o0_1_S512x1 : S512x8.Slices ![0, 1] S512x1
  slices_S512x8_o0_2_S512x1 : S512x8.Slices ![0, 2] S512x1
  slices_S512x8_o0_3_S512x1 : S512x8.Slices ![0, 3] S512x1
  slices_S512x8_o0_4_S512x1 : S512x8.Slices ![0, 4] S512x1
  slices_S512x8_o0_5_S512x1 : S512x8.Slices ![0, 5] S512x1
  slices_S512x8_o0_6_S512x1 : S512x8.Slices ![0, 6] S512x1
  slices_S512x8_o0_7_S512x1 : S512x8.Slices ![0, 7] S512x1
  iota_S512x512_d0_w32 : S512x512.Iotas .tc 32 [0]
  iota_S512x512_d1_w32 : S512x512.Iotas .tc 32 [1]
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  reducesTo_S8x1x1_S_d0_1_2 : S8x1x1.ReducesTo [0, 1, 2] S_
  dot_S8x4096_S4096x8_S8x8_1_0_0_1_n_n_wf : DotDims.WF S8x4096 S4096x8 S8x8 [1] [0] [0] [1] [] []
  dot_S8x8_S8x4096_S8x4096_1_0_0_1_n_n_wf : DotDims.WF S8x8 S8x4096 S8x4096 [1] [0] [0] [1] [] []
  hrank0 : 0 < grid0.rank
  k0_mult1_dvd : ∀ i : grid0.Coords, 512 ∣ (k0_mult1 i).toNat
  k0_mult2_dvd : ∀ i : grid0.Coords, 512 ∣ (k0_mult2 i).toNat
  k0_off1_inb : ∀ i : grid0.Coords, ∀ a, (k0_off1 i) a + S512x8.size a ≤ S4096x8.size a
  k0_off2_inb : ∀ i : grid0.Coords, ∀ a, (k0_off2 i) a + S512x8.size a ≤ S4096x8.size a
  k0_off3_inb : ∀ i : grid0.Coords, ∀ a, (k0_off3 i) a + S1x512.size a ≤ S1x4096.size a
  k0_off4_inb : ∀ i : grid0.Coords, ∀ a, (k0_off4 i) a + S1x512.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x8.size a ≤ S4096x8.size a
  hwx0_1 : ∀ i : grid0.Coords, EltTy.bits .f32 = 32 ∨ (Rect.block (s := S4096x8) S4096x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S8x1x1.size a
  hwx0_4 : ∀ i : grid0.Coords, EltTy.bits .f32 = 32 ∨ (Rect.block (s := S8x1x1) S1x1x1.size (cc0_transform_4 i) (hinb0_4 i)).WholeWords (EltTy.packing .f32)

variable [Facts₀]

def dot_S8x4096_S4096x8_S8x8_1_0_0_1_n_n : DotDims S8x4096 S4096x8 S8x8 where
  lhsContracting := [1]
  rhsContracting := [0]
  lhsNonContracting := [0]
  rhsNonContracting := [1]
  lhsBatch := []
  rhsBatch := []
  wf := dot_S8x4096_S4096x8_S8x8_1_0_0_1_n_n_wf
def dot_S8x8_S8x4096_S8x4096_1_0_0_1_n_n : DotDims S8x8 S8x4096 S8x4096 where
  lhsContracting := [1]
  rhsContracting := [0]
  lhsNonContracting := [0]
  rhsNonContracting := [1]
  lhsBatch := []
  rhsBatch := []
  wf := dot_S8x8_S8x4096_S8x4096_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S4096x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1 : Shape := ⟨1, ![1]⟩
abbrev S8x4096 : Shape := ⟨2, ![8, 4096]⟩
abbrev S4096x8 : Shape := ⟨2, ![4096, 8]⟩
abbrev S4096x1 : Shape := ⟨2, ![4096, 1]⟩
abbrev S1x4096 : Shape := ⟨2, ![1, 4096]⟩
abbrev S_ : Shape := ⟨0, ![]⟩
abbrev S8 : Shape := ⟨1, ![8]⟩
abbrev S1x8 : Shape := ⟨2, ![1, 8]⟩
abbrev S4096x1x8 : Shape := ⟨3, ![4096, 1, 8]⟩
abbrev S1x4096x8 : Shape := ⟨3, ![1, 4096, 8]⟩
abbrev S4096x4096x8 : Shape := ⟨3, ![4096, 4096, 8]⟩
abbrev S4096x2 : Shape := ⟨2, ![4096, 2]⟩

abbrev nBuf : Space → Nat
  | .hbm => 118
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S1, .f32⟩
  | .hbm, ⟨3, _⟩ => ⟨S8x4096, .f32⟩
  | .hbm, ⟨4, _⟩ => ⟨S4096x8, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S1x4096, .f32⟩
  | .hbm, ⟨16, _⟩ => ⟨S8x4096, .f32⟩
  | .hbm, ⟨17, _⟩ => ⟨S8x4096, .f32⟩
  | .hbm, ⟨18, _⟩ => ⟨S8x4096, .f32⟩
  | .hbm, ⟨19, _⟩ => ⟨S_, .f32⟩
  | .hbm, ⟨20, _⟩ => ⟨S4096, .f32⟩
  | .hbm, ⟨21, _⟩ => ⟨S1x4096, .f32⟩
  | .hbm, ⟨22, _⟩ => ⟨S8x4096, .f32⟩
  | .hbm, ⟨23, _⟩ => ⟨S8x4096, .f32⟩
  | .hbm, ⟨24, _⟩ => ⟨S_, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S1x8, .f32⟩
  | .hbm, ⟨30, _⟩ => ⟨S4096x8, .f32⟩
  | .hbm, ⟨31, _⟩ => ⟨S4096x8, .f32⟩
  | .hbm, ⟨32, _⟩ => ⟨S4096x8, .f32⟩
  | .hbm, ⟨33, _⟩ => ⟨S_, .f32⟩
  | .hbm, ⟨34, _⟩ => ⟨S8, .f32⟩
  | .hbm, ⟨35, _⟩ => ⟨S1x8, .f32⟩
  | .hbm, ⟨36, _⟩ => ⟨S4096x8, .f32⟩
  | .hbm, ⟨37, _⟩ => ⟨S4096x8, .f32⟩
  | .hbm, ⟨38, _⟩ => ⟨S4096x4096, .f32⟩
  | .hbm, ⟨39, _⟩ => ⟨S8x4096, .f32⟩
  | .hbm, ⟨40, _⟩ => ⟨S4096x8, .f32⟩
  | .hbm, ⟨41, _⟩ => ⟨S4096x1x8, .f32⟩
  | .hbm, ⟨42, _⟩ => ⟨S1x4096x8, .f32⟩
  | .hbm, ⟨43, _⟩ => ⟨S4096x4096x8, .f32⟩
  | .hbm, ⟨44, _⟩ => ⟨S4096x4096x8, .f32⟩
  | .hbm, ⟨45, _⟩ => ⟨S4096x4096x8, .f32⟩
  | .hbm, ⟨46, _⟩ => ⟨S_, .f32⟩
  | .hbm, ⟨47, _⟩ => ⟨S4096x4096x8, .f32⟩
  | .hbm, ⟨48, _⟩ => ⟨S4096x4096x8, .f32⟩
  | .hbm, ⟨49, _⟩ => ⟨S4096x4096x8, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S_, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096x4096, .f32⟩
  | .hbm, ⟨59, _⟩ => ⟨S4096x4096, .f32⟩
  | .hbm, ⟨60, _⟩ => ⟨S4096x4096, .f32⟩
  | .hbm, ⟨61, _⟩ => ⟨S4096x4096, .f32⟩
  | .hbm, ⟨62, _⟩ => ⟨S4096x4096, .i1⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S4096, .i32⟩
  | .hbm, ⟨72, _⟩ => ⟨S_, .i32⟩
  | .hbm, ⟨73, _⟩ => ⟨S4096, .i32⟩
  | .hbm, ⟨74, _⟩ => ⟨S4096, .i1⟩
  | .hbm, ⟨75, _⟩ => ⟨S_, .i32⟩
  | .hbm, ⟨76, _⟩ => ⟨S4096, .i32⟩
  | .hbm, ⟨77, _⟩ => ⟨S4096, .i32⟩
  | .hbm, ⟨78, _⟩ => ⟨S4096, .i32⟩
  | .hbm, ⟨79, _⟩ => ⟨S_, .i32⟩
  | .hbm, ⟨80, _⟩ => ⟨S4096, .i32⟩
  | .hbm, ⟨81, _⟩ => ⟨S4096, .i1⟩
  | .hbm, ⟨82, _⟩ => ⟨S_, .i32⟩
  | .hbm, ⟨83, _⟩ => ⟨S4096, .i32⟩
  | .hbm, ⟨84, _⟩ => ⟨S4096, .i32⟩
  | .hbm, ⟨85, _⟩ => ⟨S4096, .i32⟩
  | .hbm, ⟨86, _⟩ => ⟨S4096x1, .i32⟩
  | .hbm, ⟨87, _⟩ => ⟨S4096x1, .i32⟩
  | .hbm, ⟨88, _⟩ => ⟨S4096x2, .i32⟩
  | .hbm, ⟨89, _⟩ => ⟨S_, .f32⟩
  | .hbm, ⟨90, _⟩ => ⟨S4096, .f32⟩
  | .hbm, ⟨91, _⟩ => ⟨S4096x4096, .f32⟩
  | .hbm, ⟨92, _⟩ => ⟨S_, .i32⟩
  | .hbm, ⟨93, _⟩ => ⟨S4096, .i32⟩
  | .hbm, ⟨94, _⟩ => ⟨S4096, .i1⟩
  | .hbm, ⟨95, _⟩ => ⟨S_, .i32⟩
  | .hbm, ⟨96, _⟩ => ⟨S4096, .i32⟩
  | .hbm, ⟨97, _⟩ => ⟨S4096, .i32⟩
  | .hbm, ⟨98, _⟩ => ⟨S4096, .i32⟩
  | .hbm, ⟨99, _⟩ => ⟨S_, .i32⟩
  | .hbm, ⟨100, _⟩ => ⟨S4096, .i32⟩
  | .hbm, ⟨101, _⟩ => ⟨S4096, .i1⟩
  | .hbm, ⟨102, _⟩ => ⟨S_, .i32⟩
  | .hbm, ⟨103, _⟩ => ⟨S4096, .i32⟩
  | .hbm, ⟨104, _⟩ => ⟨S4096, .i32⟩
  | .hbm, ⟨105, _⟩ => ⟨S4096, .i32⟩
  | .hbm, ⟨106, _⟩ => ⟨S4096x1, .i32⟩
  | .hbm, ⟨107, _⟩ => ⟨S4096x1, .i32⟩
  | .hbm, ⟨108, _⟩ => ⟨S4096x2, .i32⟩
  | .hbm, ⟨109, _⟩ => ⟨S_, .f32⟩
  | .hbm, ⟨110, _⟩ => ⟨S4096, .f32⟩
  | .hbm, ⟨111, _⟩ => ⟨S4096x4096, .f32⟩
  | .hbm, ⟨112, _⟩ => ⟨S4096x4096, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call0_cst : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_v8 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_v44 : Ref sig .tc := ⟨.hbm, 70, rfl⟩
abbrev main_v45 : Ref sig .tc := ⟨.hbm, 71, rfl⟩
abbrev main_c : Ref sig .tc := ⟨.hbm, 72, rfl⟩
abbrev main_v46 : Ref sig .tc := ⟨.hbm, 73, rfl⟩
abbrev main_v47 : Ref sig .tc := ⟨.hbm, 74, rfl⟩
abbrev main_c_7 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_8 : Ref sig .tc := ⟨.hbm, 79, rfl⟩
abbrev main_v51 : Ref sig .tc := ⟨.hbm, 80, rfl⟩
abbrev main_v52 : Ref sig .tc := ⟨.hbm, 81, rfl⟩
abbrev main_c_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_10 : Ref sig .tc := ⟨.hbm, 89, rfl⟩
abbrev main_v59 : Ref sig .tc := ⟨.hbm, 90, rfl⟩
abbrev main_v60 : Ref sig .tc := ⟨.hbm, 91, rfl⟩
abbrev main_c_11 : Ref sig .tc := ⟨.hbm, 92, rfl⟩
abbrev main_v61 : Ref sig .tc := ⟨.hbm, 93, rfl⟩
abbrev main_v62 : Ref sig .tc := ⟨.hbm, 94, rfl⟩
abbrev main_c_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_13 : Ref sig .tc := ⟨.hbm, 99, rfl⟩
abbrev main_v66 : Ref sig .tc := ⟨.hbm, 100, rfl⟩
abbrev main_v67 : Ref sig .tc := ⟨.hbm, 101, rfl⟩
abbrev main_c_14 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_15 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_16 : Ref sig .tc := ⟨.hbm, 113, rfl⟩
abbrev main_v77 : Ref sig .tc := ⟨.hbm, 114, rfl⟩
abbrev main_cst_17 : Ref sig .tc := ⟨.hbm, 115, rfl⟩
abbrev main_v78 : Ref sig .tc := ⟨.hbm, 116, rfl⟩
abbrev main_v79 : Ref sig .tc := ⟨.hbm, 117, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S8x4096_S4096_d0 : S8x4096.ReducesTo [0] S4096
  h_S_ : 0 < S_.numel
  bcast_S_S4096 : S_.BroadcastsInDim S4096 (![] : Fin 0 → Fin S4096.rank)
  bcast_S1x4096_S8x4096_0_1 : S1x4096.BroadcastsInDim S8x4096 (![0, 1] : Fin 2 → Fin S8x4096.rank)
  reducesTo_S4096x8_S8_d0 : S4096x8.ReducesTo [0] S8
  bcast_S_S8 : S_.BroadcastsInDim S8 (![] : Fin 0 → Fin S8.rank)
  bcast_S8_S1x8_1 : S8.BroadcastsInDim S1x8 (![1] : Fin 1 → Fin S1x8.rank)
  bcast_S1x8_S4096x8_0_1 : S1x8.BroadcastsInDim S4096x8 (![0, 1] : Fin 2 → Fin S4096x8.rank)
  transposes_S8x4096_S4096x8_1_0 : S8x4096.Transposes [1, 0] S4096x8
  bcast_S4096x8_S4096x1x8_0_2 : S4096x8.BroadcastsInDim S4096x1x8 (![0, 2] : Fin 2 → Fin S4096x1x8.rank)
  bcast_S4096x8_S1x4096x8_1_2 : S4096x8.BroadcastsInDim S1x4096x8 (![1, 2] : Fin 2 → Fin S1x4096x8.rank)
  bcast_S4096x1x8_S4096x4096x8_0_1_2 : S4096x1x8.BroadcastsInDim S4096x4096x8 (![0, 1, 2] : Fin 3 → Fin S4096x4096x8.rank)
  bcast_S1x4096x8_S4096x4096x8_0_1_2 : S1x4096x8.BroadcastsInDim S4096x4096x8 (![0, 1, 2] : Fin 3 → Fin S4096x4096x8.rank)
  bcast_S_S4096x4096x8 : S_.BroadcastsInDim S4096x4096x8 (![] : Fin 0 → Fin S4096x4096x8.rank)
  reducesTo_S4096x4096x8_S4096x4096_d2 : S4096x4096x8.ReducesTo [2] S4096x4096
  shapeCasts_S1_S_ : S1.ShapeCasts S_
  bcast_S_S4096x4096 : S_.BroadcastsInDim S4096x4096 (![] : Fin 0 → Fin S4096x4096.rank)
  concatenates_S4096x1_S4096x1_S4096x2_d1 : Shape.Concatenates [S4096x1, S4096x1] S4096x2 1
  reducesTo_S4096x4096_S_d0_1 : S4096x4096.ReducesTo [0, 1] S_
  dot_S4096x8_S8x4096_S4096x4096_1_0_0_1_n_n_wf : DotDims.WF S4096x8 S8x4096 S4096x4096 [1] [0] [0] [1] [] []
  dot_S8x4096_S4096x4096_S8x4096_1_0_0_1_n_n_wf : DotDims.WF S8x4096 S4096x4096 S8x4096 [1] [0] [0] [1] [] []
  scatter_S4096x4096_S4096x2_S4096_n_01_01_1_wf : ScatterDims.WF S4096x4096 S4096x2 S4096 [] [0, 1] [0, 1] 1

variable [Facts₀]

def dot_S4096x8_S8x4096_S4096x4096_1_0_0_1_n_n : DotDims S4096x8 S8x4096 S4096x4096 where
  lhsContracting := [1]
  rhsContracting := [0]
  lhsNonContracting := [0]
  rhsNonContracting := [1]
  lhsBatch := []
  rhsBatch := []
  wf := dot_S4096x8_S8x4096_S4096x4096_1_0_0_1_n_n_wf
def dot_S8x4096_S4096x4096_S8x4096_1_0_0_1_n_n : DotDims S8x4096 S4096x4096 S8x4096 where
  lhsContracting := [1]
  rhsContracting := [0]
  lhsNonContracting := [0]
  rhsNonContracting := [1]
  lhsBatch := []
  rhsBatch := []
  wf := dot_S8x4096_S4096x4096_S8x4096_1_0_0_1_n_n_wf
def scatter_S4096x4096_S4096x2_S4096_n_01_01_1 : ScatterDims S4096x4096 S4096x2 S4096 where
  updateWindowDims := []
  insertedWindowDims := [0, 1]
  scatterDimsToOperandDims := [0, 1]
  indexVectorDim := 1
  wf := scatter_S4096x4096_S4096x2_S4096_n_01_01_1_wf

class Facts : Prop extends Facts₀ where

variable [Facts]
-- ==== Proof.KStep.lean ====
import proofs.«100442_j10110353015379_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-!
  What one grid point does, as a value.

  The grid has 8 × 8 points; point (I, J) works on tile (I, J) of the adjacency matrix: rows 512·I … 512·I + 511,
  columns 512·J … 512·J + 511. From the whole matrix of latent positions it takes the rows of the tile's rows and the
  rows of the tile's columns, from the bias vector the two matching stretches, and adds ONE number — the sum of the
  tile's contributions — to a one-element accumulator. The accumulator is reset before the first tile of a row of
  tiles and copied to the output after the last.

  This module names that step as a function of the blocks the point reads and of the accumulator it finds, and shows
  that each of the three control cases of the body (first tile of a row, a middle tile, the last tile) leaves exactly
  that function's value in the accumulator — and, in the last case, in the output block as well.
-/
namespace Cert.KernelIdeal.KValue

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The rows of the latent positions that belong to the tile's rows. -/
abbrev rowsI (i : grid0.Coords) (x1 : Vec F S4096x8 .f32) : Vec F S512x8 .f32 :=
  View.ld x1 (Rect.unit (s := S4096x8) (k0_off1 i) S512x8.size (k0_off1_inb i))
/-- The rows of the latent positions that belong to the tile's columns. -/
abbrev rowsJ (i : grid0.Coords) (x1 : Vec F S4096x8 .f32) : Vec F S512x8 .f32 :=
  View.ld x1 (Rect.unit (s := S4096x8) (k0_off2 i) S512x8.size (k0_off2_inb i))
/-- The biases of the tile's rows. -/
abbrev biasI (i : grid0.Coords) (x2 : Vec F S1x4096 .f32) : Vec F S1x512 .f32 :=
  View.ld x2 (Rect.unit (s := S1x4096) (k0_off3 i) S1x512.size (k0_off3_inb i))
/-- The biases of the tile's columns. -/
abbrev biasJ (i : grid0.Coords) (x2 : Vec F S1x4096 .f32) : Vec F S1x512 .f32 :=
  View.ld x2 (Rect.unit (s := S1x4096) (k0_off4 i) S1x512.size (k0_off4_inb i))

/-- The tile of contributions before the diagonal is masked: `theta · A - softplus theta` entry by entry. -/
def contrib (i : grid0.Coords) (x0 : Vec F S512x512 .f32) (x1 : Vec F S4096x8 .f32) (x2 : Vec F S1x4096 .f32)
    (x3 : Vec F S1x1 .f32) : FVec F S512x512 .f32 :=
  k0_pay14 (k0_pay3 (rowsI i x1)) (k0_pay4 (rowsJ i x1)) (k0_pay5 (biasI i x2)) (k0_pay6 (biasJ i x2)) x0 (k0_pay7 x3)
    (k0_pay11 (k0_pay3 (rowsI i x1)) (k0_pay4 (rowsJ i x1)) (k0_pay8 (rowsI i x1) (rowsJ i x1)) (k0_pay9 (rowsJ i x1))
      (k0_pay10 (rowsI i x1)))
    (k0_pay12 (k0_pay3 (rowsI i x1)) (k0_pay4 (rowsJ i x1))) k0_pay13

/-- One grid point's step: the accumulator it finds plus the sum of the tile's masked contributions. -/
def step (i : grid0.Coords) (x0 : Vec F S512x512 .f32) (x1 : Vec F S4096x8 .f32) (x2 : Vec F S1x4096 .f32)
    (x3 : Vec F S1x1 .f32) (acc : Vec F S1x1x1 .f32) : FVec F S1x1x1 .f32 :=
  k0_pay1 (Scalar.muli (BitVec.ofNat 32 (i 1).val) 512#32) (contrib i x0 x1 x2 x3)
    (iota .tc S512x512 32 [0] iota_S512x512_d0_w32) (k0_pay15 (Scalar.muli (BitVec.ofNat 32 (i 0).val) 512#32)) acc

/-- A middle tile: the accumulator, found at `xs0`, is left at the step's value. -/
theorem acc_B (c : Dev nD) (i : grid0.Coords) (arg2 : Memref sig .tc .vmem S512x512 .f32) (harg2 : arg2.IsWhole) (arg3 : Memref sig .tc .vmem S4096x8 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1x1 .f32) (harg6 : arg6.IsWhole) (arg7 : Memref sig .tc .vmem S1x1x1 .f32) (harg7 : arg7.IsWhole) (hc0 : ¬cond0_0 i) (hc1 : ¬cond0_1 i) (x0 : Vec F S512x512 .f32) (x1 : Vec F S4096x8 .f32) (x2 : Vec F S1x4096 .f32) (x3 : Vec F S1x1 .f32) (xs0 : Vec F S1x1x1 .f32) :
    sout0_B_0 c i arg2 harg2 arg3 harg3 arg4 harg4 arg5 harg5 arg6 harg6 arg7 harg7 hc0 hc1 x0 x1 x2 x3 xs0 = step i x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz3]
  simp only [View.readAt_eq_ld, harg2.read_unread, harg3.read_unread, harg4.read_unread, harg5.read_unread,
    harg7.read_unread, View.ld_unit_zero (S := S512x512) hz2, View.ld_unit_zero (S := S1x1) hz2,
    View.ld_unit_zero (S := S1x1x1) hz3]
  rfl

/-- The last tile of a row of tiles: the accumulator is left at the step's value, -/
theorem acc_C (c : Dev nD) (i : grid0.Coords) (arg2 : Memref sig .tc .vmem S512x512 .f32) (harg2 : arg2.IsWhole) (arg3 : Memref sig .tc .vmem S4096x8 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1x1 .f32) (harg6 : arg6.IsWhole) (arg7 : Memref sig .tc .vmem S1x1x1 .f32) (harg7 : arg7.IsWhole) (hc0 : ¬cond0_0 i) (hc1 : cond0_1 i) (x0 : Vec F S512x512 .f32) (x1 : Vec F S4096x8 .f32) (x2 : Vec F S1x4096 .f32) (x3 : Vec F S1x1 .f32) (xs0 : Vec F S1x1x1 .f32) :
    sout0_C_0 c i arg2 harg2 arg3 harg3 arg4 harg4 arg5 harg5 arg6 harg6 arg7 harg7 hc0 hc1 x0 x1 x2 x3 xs0 = step i x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz3]
  simp only [View.readAt_eq_ld, harg2.read_unread, harg3.read_unread, harg4.read_unread, harg5.read_unread,
    harg7.read_unread, View.ld_unit_zero (S := S512x512) hz2, View.ld_unit_zero (S := S1x1) hz2,
    View.ld_unit_zero (S := S1x1x1) hz3]
  rfl

/-- and the output block holds a copy of it. -/
theorem out_C (c : Dev nD) (i : grid0.Coords) (arg2 : Memref sig .tc .vmem S512x512 .f32) (harg2 : arg2.IsWhole) (arg3 : Memref sig .tc .vmem S4096x8 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1x1 .f32) (harg6 : arg6.IsWhole) (arg7 : Memref sig .tc .vmem S1x1x1 .f32) (harg7 : arg7.IsWhole) (hc0 : ¬cond0_0 i) (hc1 : cond0_1 i) (x0 : Vec F S512x512 .f32) (x1 : Vec F S4096x8 .f32) (x2 : Vec F S1x4096 .f32) (x3 : Vec F S1x1 .f32) (xs0 : Vec F S1x1x1 .f32) :
    out0_C_4 c i arg2 harg2 arg3 harg3 arg4 harg4 arg5 harg5 arg6 harg6 arg7 harg7 hc0 hc1 x0 x1 x2 x3 xs0 = step i x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz3, View.readCov_unit_zero (S := S1x1x1) _ hz3]
  simp only [View.readAt_eq_ld, harg2.read_unread, harg3.read_unread, harg4.read_unread, harg5.read_unread,
    harg7.read_unread, View.ld_unit_zero (S := S512x512) hz2, View.ld_unit_zero (S := S1x1) hz2,
    View.ld_unit_zero (S := S1x1x1) hz3]
  rfl

/-- The first tile of a row of tiles: the accumulator is reset to zero, then left at the step's value over that zero. -/
theorem acc_A (c : Dev nD) (i : grid0.Coords) (arg2 : Memref sig .tc .vmem S512x512 .f32) (harg2 : arg2.IsWhole) (arg3 : Memref sig .tc .vmem S4096x8 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1x1 .f32) (harg6 : arg6.IsWhole) (arg7 : Memref sig .tc .vmem S1x1x1 .f32) (harg7 : arg7.IsWhole) (hc0 : cond0_0 i) (hc1 : ¬cond0_1 i) (x0 : Vec F S512x512 .f32) (x1 : Vec F S4096x8 .f32) (x2 : Vec F S1x4096 .f32) (x3 : Vec F S1x1 .f32) :
    sout0_A_0 c i arg2 harg2 arg3 harg3 arg4 harg4 arg5 harg5 arg6 harg6 arg7 harg7 hc0 hc1 x0 x1 x2 x3 = step i x0 x1 x2 x3 k0_pay2 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread,
    View.ld_unit_zero (S := S512x512) hz2, View.ld_unit_zero (S := S1x1) hz2]
  rfl

end Cert.KernelIdeal.KValue
end
-- ==== Proof.Spec.lean ====
/-
  The quantity both programs compute, written index by index on the extended reals.

  From a matrix of latent positions `M` (one row of eight coordinates per node), node biases `β`, a scale `a`
  and an adjacency matrix `A`: for an ordered pair of nodes `(i, j)` the squared distance is the sum over the
  eight coordinates of `(M i k - M j k + shift)²`, `theta` is `β i + β j - a · √(squared distance)`, and the
  pair contributes `theta · A i j - softplus theta` unless `i = j`, where it contributes nothing. The result is
  the sum of the contributions over all ordered pairs.
-/
import Idealize.ShloMosaic.PureOps.Ideal

noncomputable section

open scoped BigOperators

namespace Cert.Raa

open Idealize.ShloMosaic

/-- The shift added to every coordinate difference: the single-precision number nearest to one millionth, read exactly. -/
def shift : EReal := Ideal.ofBits .f32 0x358637BD#32

/-- `max x 0 + log (1 + e^(-|x|))`, with `|x|` written `max x (-x)`. -/
def softplus (x : EReal) : EReal := max x 0 + Ideal.log1p (Ideal.exp (-(max x (-x))))

/-- The squared shifted distance between rows `i` and `j` of `M`. -/
def sqdist (M : Fin 4096 → Fin 8 → EReal) (i j : Fin 4096) : EReal :=
  ∑ k : Fin 8, (M i k - M j k + shift) * (M i k - M j k + shift)

/-- `β i + β j - a · √(squared distance)`. -/
def theta (M : Fin 4096 → Fin 8 → EReal) (β : Fin 4096 → EReal) (a : EReal) (i j : Fin 4096) : EReal :=
  (β i + β j) - a * Ideal.sqrt (sqdist M i j)

/-- What the ordered pair `(i, j)` contributes: nothing on the diagonal, `theta · A i j - softplus theta` off it. -/
def term (M : Fin 4096 → Fin 8 → EReal) (β : Fin 4096 → EReal) (a : EReal) (A : Fin 4096 → Fin 4096 → EReal)
    (i j : Fin 4096) : EReal :=
  if i = j then 0 else theta M β a i j * A i j - softplus (theta M β a i j)

/-- The sum of the contributions over all ordered pairs. -/
def total (M : Fin 4096 → Fin 8 → EReal) (β : Fin 4096 → EReal) (a : EReal) (A : Fin 4096 → Fin 4096 → EReal) : EReal :=
  ∑ i : Fin 4096, ∑ j : Fin 4096, term M β a A i j

end Cert.Raa

end
-- ==== Proof.LibColumns.lean ====
/-
  Column forms of the layout reads, at indices given by coordinates: a vector seen as a one-column matrix
  ([a] → [a, 1], what a row reduction with the axis kept produces), a one-column matrix seen as a vector again
  ([a, 1] → [a]) or as a one-row matrix ([a, 1] → [1, a]), and a one-column matrix repeated along the rows
  ([a, 1] → [a, b]). Each is the general read of the operation (a shape cast keeps the row-major position, a
  broadcast reads 0 on a unit axis) at these two shapes, with both indices written by coordinates.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`:
the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array cast to `[1, a]` reads, at `(u, i)`, the operand at `(i, 0)`: both positions are `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibColumnReads.lean ====
/-
  Arrays of N rows read one column at a time.

  Two layout operations, each read at an index given by its coordinates (row r, column k):
    * the unit-stride slice [0:N, k:k+1] of an [N, K] array is the array's column k, kept as an [N, 1] array:
      its entry (r, 0) is the array's entry (r, k);
    * the concatenation along axis 1 of eight [N, 1] arrays is the [N, 8] array whose column k is the k-th of them:
      its entry (r, k) is the k-th array's entry (r, 0).
  Both hold for any element type: no arithmetic is involved.
-/
import Idealize.ShloMosaic.Lib.Pipeline.Value
import Idealize.ShloMosaic.Lib.ValueIdx

noncomputable section

namespace Cert.ColumnReads

open Idealize.ShloMosaic Idealize.ShloMosaic.ValueIdx

variable {α : Type}

/-- The slice [0:N, k:k+1] of an [N, K] array, read at (r, 0), is the array at (r, k). The offsets are given as they are
    printed (`off`), with what they are on each axis (`h0`, `h1`). -/
theorem slice_col (N K : ℕ) (x : (⟨2, ![N, K]⟩ : Shape).Idx → α) (off : Fin 2 → ℕ) (k : Fin K)
    (h0 : off 0 = 0) (h1 : off 1 = k.val)
    (h : (⟨2, ![N, K]⟩ : Shape).Slices off ⟨2, ![N, 1]⟩) (r : Fin N) :
    extractStridedSlice (⟨2, ![N, 1]⟩ : Shape) off x h (ix2 r (0 : Fin 1)) = x (ix2 r k) :=
  extractStridedSlice_apply off x h (ix2 r (0 : Fin 1)) (ix2 r k) fun a => by
    match a with
    | ⟨0, _⟩ => show r.val = off 0 + r.val; rw [h0, Nat.zero_add]
    | ⟨1, _⟩ => show k.val = off 1 + 0; rw [h1, Nat.add_zero]

/-- The k-th of eight. -/
def pick8 {β : Type} (u0 u1 u2 u3 u4 u5 u6 u7 : β) : Fin 8 → β
  | 0 => u0 | 1 => u1 | 2 => u2 | 3 => u3 | 4 => u4 | 5 => u5 | 6 => u6 | 7 => u7

/-- The eight [N, 1] arrays, each paired with its shape, in the order a concatenation takes them. -/
abbrev cols8 (N : ℕ) (u0 u1 u2 u3 u4 u5 u6 u7 : (⟨2, ![N, 1]⟩ : Shape).Idx → α) : List ((s : Shape) × (s.Idx → α)) :=
  [⟨⟨2, ![N, 1]⟩, u0⟩, ⟨⟨2, ![N, 1]⟩, u1⟩, ⟨⟨2, ![N, 1]⟩, u2⟩, ⟨⟨2, ![N, 1]⟩, u3⟩,
   ⟨⟨2, ![N, 1]⟩, u4⟩, ⟨⟨2, ![N, 1]⟩, u5⟩, ⟨⟨2, ![N, 1]⟩, u6⟩, ⟨⟨2, ![N, 1]⟩, u7⟩]

/-- Off the concatenation axis an entry keeps its row (axis 0 is the only other axis). -/
private theorem row_kept (N : ℕ) (r : Fin N) (k : Fin 8) (b : Fin 2)
    (hb : b.cast (rfl : (⟨2, ![N, 1]⟩ : Shape).rank = (⟨2, ![N, 8]⟩ : Shape).rank) ≠ (1 : Fin (⟨2, ![N, 8]⟩ : Shape).rank)) :
    ((ix2 r (0 : Fin 1) : (⟨2, ![N, 1]⟩ : Shape).Idx) b).val
      = ((ix2 r k : (⟨2, ![N, 8]⟩ : Shape).Idx) (b.cast rfl)).val := by
  match b, hb with
  | ⟨0, _⟩, _ => rfl
  | ⟨1, _⟩, hb => exact absurd rfl hb

/-- The concatenation along axis 1 of eight [N, 1] arrays, read at (r, k), is the k-th of them at (r, 0): the piece whose
    one column is column k. -/
theorem concat8_apply (N : ℕ) (u0 u1 u2 u3 u4 u5 u6 u7 : (⟨2, ![N, 1]⟩ : Shape).Idx → α)
    (h : Shape.Concatenates ((cols8 N u0 u1 u2 u3 u4 u5 u6 u7).map (·.1)) ⟨2, ![N, 8]⟩ 1)
    (r : Fin N) (k : Fin 8) :
    concatenate (⟨2, ![N, 8]⟩ : Shape) 1 (cols8 N u0 u1 u2 u3 u4 u5 u6 u7) h (ix2 r k)
      = pick8 u0 u1 u2 u3 u4 u5 u6 u7 k (ix2 r (0 : Fin 1)) := by
  match k with
  | 0 =>
    exact concatenate_apply_piece (1 : Fin (⟨2, ![N, 8]⟩ : Shape).rank) _ h (ix2 r 0) 0 (by show 0 < 8; decide)
            ⟨2, ![N, 1]⟩ u0 rfl rfl 0 rfl (ix2 r (0 : Fin 1)) (row_kept N r 0) rfl
  | 1 =>
    exact concatenate_apply_piece (1 : Fin (⟨2, ![N, 8]⟩ : Shape).rank) _ h (ix2 r 1) 1 (by show 1 < 8; decide)
            ⟨2, ![N, 1]⟩ u1 rfl rfl 1 rfl (ix2 r (0 : Fin 1)) (row_kept N r 1) rfl
  | 2 =>
    exact concatenate_apply_piece (1 : Fin (⟨2, ![N, 8]⟩ : Shape).rank) _ h (ix2 r 2) 2 (by show 2 < 8; decide)
            ⟨2, ![N, 1]⟩ u2 rfl rfl 2 rfl (ix2 r (0 : Fin 1)) (row_kept N r 2) rfl
  | 3 =>
    exact concatenate_apply_piece (1 : Fin (⟨2, ![N, 8]⟩ : Shape).rank) _ h (ix2 r 3) 3 (by show 3 < 8; decide)
            ⟨2, ![N, 1]⟩ u3 rfl rfl 3 rfl (ix2 r (0 : Fin 1)) (row_kept N r 3) rfl
  | 4 =>
    exact concatenate_apply_piece (1 : Fin (⟨2, ![N, 8]⟩ : Shape).rank) _ h (ix2 r 4) 4 (by show 4 < 8; decide)
            ⟨2, ![N, 1]⟩ u4 rfl rfl 4 rfl (ix2 r (0 : Fin 1)) (row_kept N r 4) rfl
  | 5 =>
    exact concatenate_apply_piece (1 : Fin (⟨2, ![N, 8]⟩ : Shape).rank) _ h (ix2 r 5) 5 (by show 5 < 8; decide)
            ⟨2, ![N, 1]⟩ u5 rfl rfl 5 rfl (ix2 r (0 : Fin 1)) (row_kept N r 5) rfl
  | 6 =>
    exact concatenate_apply_piece (1 : Fin (⟨2, ![N, 8]⟩ : Shape).rank) _ h (ix2 r 6) 6 (by show 6 < 8; decide)
            ⟨2, ![N, 1]⟩ u6 rfl rfl 6 rfl (ix2 r (0 : Fin 1)) (row_kept N r 6) rfl
  | 7 =>
    exact concatenate_apply_piece (1 : Fin (⟨2, ![N, 8]⟩ : Shape).rank) _ h (ix2 r 7) 7 (by show 7 < 8; decide)
            ⟨2, ![N, 1]⟩ u7 rfl rfl 7 rfl (ix2 r (0 : Fin 1)) (row_kept N r 7) rfl

end Cert.ColumnReads

end
-- ==== Proof.KTile.lean ====
/-
  One entry of a tile of contributions, read on the extended reals.

  The body builds the tile column by column of the latent positions: for each of the eight coordinates it spreads the
  coordinate of the tile's rows along the columns and that of the tile's columns along the rows, subtracts, adds the
  shift, squares, and adds the eight squares one after the other from zero. At entry `(p, q)` this is the sum over the
  coordinates of `(rI p k - rJ q k + shift)²`; with the biases and the scale it gives `theta`, and the entry is
  `theta · A - softplus theta`, the guarded form of `softplus` the body computes being `softplus` itself.
-/
import proofs.«100442_j10110353015379_1_alg».proof.Proof.KStep
import proofs.«100442_j10110353015379_1_alg».proof.Proof.Spec
import proofs.«100442_j10110353015379_1_alg».proof.Proof.LibColumns
import proofs.«100442_j10110353015379_1_alg».proof.Proof.LibColumnReads
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)
open Idealize.ShloMosaic.ValueIdx Cert.ColumnReads

namespace Cert.KernelIdeal.KValue

open Cert.KernelIdeal Cert.KernelIdeal.Gen

variable {α : Type}

/-- Column `k` of a block of rows, spread along the tile's rows: at `(p, q)` it is the block's entry `(p, k)`. -/
theorem colRead (v : (⟨2, ![512, 8]⟩ : Shape).Idx → α) (k : ℕ) (hk : k < 8)
    (hs : (⟨2, ![512, 8]⟩ : Shape).Slices ![0, k] ⟨2, ![512, 1]⟩) (ha : (⟨2, ![512, 1]⟩ : Shape).ShapeCasts ⟨1, ![512]⟩)
    (hb : (⟨1, ![512]⟩ : Shape).ShapeCasts ⟨2, ![512, 1]⟩) (hc : (⟨2, ![512, 1]⟩ : Shape).Broadcasts ⟨2, ![512, 512]⟩)
    (p q : Fin 512) :
    broadcastTo ⟨2, ![512, 512]⟩ (shapeCast ⟨2, ![512, 1]⟩ (shapeCast ⟨1, ![512]⟩
      (extractStridedSlice ⟨2, ![512, 1]⟩ ![0, k] v hs) ha) hb) hc (ix2 p q) = v (ix2 p ⟨k, hk⟩) := by
  rw [broadcastTo_a1_ab_apply, shapeCast_a_a1_apply, shapeCast_a1_a_apply, slice_col 512 8 v ![0, k] ⟨k, hk⟩ rfl rfl]

/-- Column `k` of a block of rows, spread along the tile's columns: at `(p, q)` it is the block's entry `(q, k)`. -/
theorem rowRead (v : (⟨2, ![512, 8]⟩ : Shape).Idx → α) (k : ℕ) (hk : k < 8)
    (hs : (⟨2, ![512, 8]⟩ : Shape).Slices ![0, k] ⟨2, ![512, 1]⟩) (ha : (⟨2, ![512, 1]⟩ : Shape).ShapeCasts ⟨1, ![512]⟩)
    (hb : (⟨1, ![512]⟩ : Shape).ShapeCasts ⟨2, ![1, 512]⟩) (hc : (⟨2, ![1, 512]⟩ : Shape).Broadcasts ⟨2, ![512, 512]⟩)
    (p q : Fin 512) :
    broadcastTo ⟨2, ![512, 512]⟩ (shapeCast ⟨2, ![1, 512]⟩ (shapeCast ⟨1, ![512]⟩
      (extractStridedSlice ⟨2, ![512, 1]⟩ ![0, k] v hs) ha) hb) hc (ix2 p q) = v (ix2 q ⟨k, hk⟩) := by
  rw [broadcastTo_1b_ab_apply, shapeCast_a_1a_apply, shapeCast_a1_a_apply, slice_col 512 8 v ![0, k] ⟨k, hk⟩ rfl rfl]

/-- A stretch of biases, spread along the tile's rows: at `(p, q)` it is the stretch's entry `p`. -/
theorem biasColRead (v : (⟨2, ![1, 512]⟩ : Shape).Idx → α) (ha : (⟨2, ![1, 512]⟩ : Shape).ShapeCasts ⟨1, ![512]⟩)
    (hb : (⟨1, ![512]⟩ : Shape).ShapeCasts ⟨2, ![512, 1]⟩) (hc : (⟨2, ![512, 1]⟩ : Shape).Broadcasts ⟨2, ![512, 512]⟩)
    (p q : Fin 512) :
    broadcastTo ⟨2, ![512, 512]⟩ (shapeCast ⟨2, ![512, 1]⟩ (shapeCast ⟨1, ![512]⟩ v ha) hb) hc (ix2 p q)
      = v (ix2 (0 : Fin 1) p) := by
  rw [broadcastTo_a1_ab_apply, shapeCast_a_a1_apply, shapeCast_1a_a_apply]

/-- A stretch of biases, spread along the tile's columns: at `(p, q)` it is the stretch's entry `q`. -/
theorem biasRowRead (v : (⟨2, ![1, 512]⟩ : Shape).Idx → α) (ha : (⟨2, ![1, 512]⟩ : Shape).ShapeCasts ⟨1, ![512]⟩)
    (hb : (⟨1, ![512]⟩ : Shape).ShapeCasts ⟨2, ![1, 512]⟩) (hc : (⟨2, ![1, 512]⟩ : Shape).Broadcasts ⟨2, ![512, 512]⟩)
    (p q : Fin 512) :
    broadcastTo ⟨2, ![512, 512]⟩ (shapeCast ⟨2, ![1, 512]⟩ (shapeCast ⟨1, ![512]⟩ v ha) hb) hc (ix2 p q)
      = v (ix2 (0 : Fin 1) q) := by
  rw [broadcastTo_1b_ab_apply, shapeCast_a_1a_apply, shapeCast_1a_a_apply]

variable {s : Shape} {φ : FTy}
theorem sqrt_apply (a : FVec Ideal s φ) (i : s.Idx) : sqrt a i = Ideal.sqrt (a i) := rfl
theorem exp_apply (a : FVec Ideal s φ) (i : s.Idx) : exp a i = Ideal.exp (a i) := rfl
theorem log1p_apply (a : FVec Ideal s φ) (i : s.Idx) : log1p a i = Ideal.log1p (a i) := rfl
theorem absf_apply (a : FVec Ideal s φ) (i : s.Idx) : absf a i = max (a i) (-(a i)) := rfl

/-- The guarded form of `softplus` the body computes is `softplus`: the guard compares a number with itself for
    "ordered and different", which never holds, and subtracting or adding the zero changes nothing. -/
theorem soft_eq (y : EReal) :
    Scalar.select (FloatOps.cmpf (F := Ideal) (φ := .f32) CmpFPredicate.one
        (y - FloatOps.ofBits (F := Ideal) FTy.f32 0#32) (y - FloatOps.ofBits (F := Ideal) FTy.f32 0#32))
      (y + FloatOps.ofBits (F := Ideal) FTy.f32 0#32)
      (max y (FloatOps.ofBits (F := Ideal) FTy.f32 0#32) + Ideal.log1p (Ideal.exp (FloatOps.ofBits (F := Ideal) FTy.f32 0#32
        - max (y - FloatOps.ofBits (F := Ideal) FTy.f32 0#32) (-(y - FloatOps.ofBits (F := Ideal) FTy.f32 0#32)))))
      = Cert.Raa.softplus y := by
  have h0 : (FloatOps.ofBits (F := Ideal) FTy.f32 0#32 : EReal) = 0 := Ideal.ofBits_zero_f32
  rw [h0, Ideal.cmpf_def]
  have hc : Ideal.cmp CmpFPredicate.one (y - 0) (y - 0) = 0#1 := by unfold Ideal.cmp; simp
  rw [hc, select_zero, sub_zero, zero_sub]
  rfl

/-- `theta` of one entry of a tile, from the two blocks of rows, the two stretches of biases and the scale. -/
def thetaT (rI rJ : S512x8.Idx → EReal) (bI bJ : S1x512.Idx → EReal) (a : EReal) (p q : Fin 512) : EReal :=
  (bI (ix2 (0 : Fin 1) p) + bJ (ix2 (0 : Fin 1) q))
    - a * Ideal.sqrt (∑ k : Fin 8, (rI (ix2 p k) - rJ (ix2 q k) + Cert.Raa.shift) * (rI (ix2 p k) - rJ (ix2 q k) + Cert.Raa.shift))

theorem contrib_apply (i : grid0.Coords) (x0 : Vec Ideal S512x512 .f32) (x1 : Vec Ideal S4096x8 .f32)
    (x2 : Vec Ideal S1x4096 .f32) (x3 : Vec Ideal S1x1 .f32) (p q : Fin 512) :
    contrib (F := Ideal) i x0 x1 x2 x3 (ix2 p q)
      = thetaT (rowsI i x1) (rowsJ i x1) (biasI i x2) (biasJ i x2) (x3 (ix2 0 0)) p q * x0 (ix2 p q)
        - Cert.Raa.softplus (thetaT (rowsI i x1) (rowsJ i x1) (biasI i x2) (biasJ i x2) (x3 (ix2 0 0)) p q) := by
  unfold contrib k0_pay14 k0_pay11 k0_pay12 k0_pay13 k0_pay8 k0_pay9 k0_pay10 k0_pay3 k0_pay4 k0_pay5 k0_pay6 k0_pay7
  generalize rowsI i x1 = rI
  generalize rowsJ i x1 = rJ
  generalize biasI i x2 = bI
  generalize biasJ i x2 = bJ
  simp only [shapeCast_self, sqrt_apply, exp_apply, log1p_apply, absf_apply, subf_apply, addf_apply, mulf_apply, broadcast_apply, maximumf_apply, select_apply, cmpf_apply,
    colRead (k := 0) (hk := by decide), colRead (k := 1) (hk := by decide), colRead (k := 2) (hk := by decide),
    colRead (k := 3) (hk := by decide), colRead (k := 4) (hk := by decide), colRead (k := 5) (hk := by decide),
    colRead (k := 6) (hk := by decide), colRead (k := 7) (hk := by decide),
    rowRead (k := 0) (hk := by decide), rowRead (k := 1) (hk := by decide), rowRead (k := 2) (hk := by decide),
    rowRead (k := 3) (hk := by decide), rowRead (k := 4) (hk := by decide), rowRead (k := 5) (hk := by decide),
    rowRead (k := 6) (hk := by decide), rowRead (k := 7) (hk := by decide), biasColRead, biasRowRead]
  have h0 : (FloatOps.ofBits (F := Ideal) FTy.f32 0#32 : EReal) = 0 := Ideal.ofBits_zero_f32
  have hx : extractAt ![0, 0] x3 inpos_S1x1_p0_0 = x3 (ix2 0 0) :=
    congrArg x3 (funext fun a => by match a with | ⟨0, _⟩ => rfl | ⟨1, _⟩ => rfl)
  rw [soft_eq, hx, h0, zero_add]
  unfold thetaT Cert.Raa.shift
  rw [Fin.sum_univ_eight]
  rfl

end Cert.KernelIdeal.KValue
end
-- ==== Proof.KMask.lean ====
/-
  One grid point's step, read on the extended reals: the accumulator plus the sum, over the tile's 512 × 512 entries, of
  the masked contributions — the contribution where the entry's global row and column differ, zero where they agree.
-/
import proofs.«100442_j10110353015379_1_alg».proof.Proof.KTile
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.KValue

open Cert.KernelIdeal Cert.KernelIdeal.Gen

/-- The tile of contributions with the entries on the global diagonal replaced by zero: entry `(p, q)` of tile
    `(I, J)` is masked when `512·I + p` and `512·J + q` are the same 32-bit word. -/
def masked (i : grid0.Coords) (x0 : Vec Ideal S512x512 .f32) (x1 : Vec Ideal S4096x8 .f32) (x2 : Vec Ideal S1x4096 .f32)
    (x3 : Vec Ideal S1x1 .f32) : FVec Ideal S512x512 .f32 :=
  select (cmpi .eq (addi (k0_pay15 (Scalar.muli (BitVec.ofNat 32 (i 0).val) 512#32)) (iota .tc S512x512 32 [0] iota_S512x512_d0_w32))
      (addi (broadcast S512x512 (Scalar.muli (BitVec.ofNat 32 (i 1).val) 512#32)) (iota .tc S512x512 32 [1] iota_S512x512_d1_w32)))
    (broadcast S512x512 (Scalar.ofBits (F := Ideal) .f32 0x00000000#32)) (contrib (F := Ideal) i x0 x1 x2 x3)

/-- The sum of a 512 × 512 tile taken as the kernel takes it — the tile seen as `[1, 512, 512]`, reduced over its two long
    axes into one entry, that entry extracted — is the sum of the tile's entries. -/
theorem tile_total (v : FVec Ideal S512x512 .f32) (hφ : FKind.Formats FTy.f32) (hacc : (0x00000000#32 : BitVec FTy.f32.bits) = FKind.add.neutral FTy.f32 hφ) :
    extractAt ![0, 0, 0] (shapeCast S1x1x1 (multiReduction .add [1, 2] S1
      (shapeCast S1x512x512 v shapeCasts_S512x512_S1x512x512) 0x00000000#32 reduces_S1x512x512_S1 hφ hacc)
      shapeCasts_S1_S1x1x1) inpos_S1x1x1_p0_0_0 = ∑ z : S512x512.Idx, v z := by
  have ht : ∀ b, S1.size b = 1 := fun b => by fin_cases b; rfl
  have e := Ideal.multiReduction_add_total (φ := .f32) (shapeCast S1x512x512 v shapeCasts_S512x512_S1x512x512)
    0x00000000#32 reduces_S1x512x512_S1 ht hφ hacc
    (Shape.reshapeEquiv shapeCasts_S1_S1x1x1 (fun a => ⟨![0, 0, 0] a, inpos_S1x1x1_p0_0_0 a⟩))
  refine Eq.trans ?_ (e.trans ?_)
  · rfl
  · exact Equiv.sum_comp (Shape.reshapeEquiv shapeCasts_S512x512_S1x512x512) v

/-- The step adds to the accumulator's one entry the sum of the masked tile. -/
theorem step_apply (i : grid0.Coords) (x0 : Vec Ideal S512x512 .f32) (x1 : Vec Ideal S4096x8 .f32)
    (x2 : Vec Ideal S1x4096 .f32) (x3 : Vec Ideal S1x1 .f32) (acc : Vec Ideal S1x1x1 .f32) (y : S1x1x1.Idx) :
    step (F := Ideal) i x0 x1 x2 x3 acc y = acc y + ∑ z : S512x512.Idx, masked i x0 x1 x2 x3 z := by
  unfold step k0_pay1
  simp only [shapeCast_self]
  rw [addf_apply, broadcast_apply]
  refine congrArg (acc y + ·) ?_
  unfold masked
  generalize (select (cmpi CmpIPredicate.eq
      (addi (k0_pay15 (Scalar.muli (BitVec.ofNat 32 (i 0).val) 512#32)) (iota Kind.tc S512x512 32 [0] iota_S512x512_d0_w32))
      (addi (broadcast S512x512 (Scalar.muli (BitVec.ofNat 32 (i 1).val) 512#32)) (iota Kind.tc S512x512 32 [1] iota_S512x512_d1_w32)))
      (broadcast S512x512 (Scalar.ofBits (F := Ideal) .f32 0x00000000#32)) (contrib (F := Ideal) i x0 x1 x2 x3)) = v
  exact tile_total v _ _

/-- The reset value of the accumulator is zero. -/
theorem reset_apply (y : S1x1x1.Idx) : k0_pay2 (F := Ideal) y = 0 := by
  unfold k0_pay2
  simp only [shapeCast_self, broadcast_apply]
  exact Ideal.ofBits_zero_f32

end Cert.KernelIdeal.KValue
end
-- ==== Proof.KAcc.lean ====
/-
  The accumulator along a row of tiles, and the output array after the run.

  The 64 grid points are numbered row of tiles by row of tiles: point `8·I + J` works on tile `(I, J)`. At the first
  point of a row of tiles the accumulator restarts from zero, at each point it grows by the point's tile sum, and at the
  last point of the row its value is copied to entry `I` of the output. So after point `8·I + J` the accumulator holds
  the sum of the tile sums of points `8·I … 8·I + J`, and the output array ends holding, at `I`, the sum over the whole
  row of tiles.
-/
import proofs.«100442_j10110353015379_1_alg».proof.Proof.KMask
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.KValue

open Cert.KernelIdeal Cert.KernelIdeal.Gen

variable (m : (ℓ : Loc nD τ sig) → Buf (Elt Ideal) ℓ)

/-- The step of point `t`, on the blocks the point reads. -/
abbrev stepAt (c : Dev nD) (t : Fin cfg0.N) (acc : Vec Ideal S1x1x1 .f32) : Vec Ideal S1x1x1 .f32 :=
  step (F := Ideal) (grid0.coords t) (iblk m c 0 t) (iblk m c 1 t) (iblk m c 2 t) (iblk m c 3 t) acc

/-- The sum of the masked tile that point `n` works on (zero past the grid's 64 points). -/
def tileSum (c : Dev nD) (n : ℕ) : EReal :=
  if h : n < cfg0.N then
    ∑ z : S512x512.Idx, masked (grid0.coords ⟨n, h⟩) (iblk m c 0 ⟨n, h⟩) (iblk m c 1 ⟨n, h⟩) (iblk m c 2 ⟨n, h⟩) (iblk m c 3 ⟨n, h⟩) z
  else 0

theorem stepAt_apply (c : Dev nD) (t : Fin cfg0.N) (acc : Vec Ideal S1x1x1 .f32) (y : S1x1x1.Idx) :
    stepAt m c t acc y = acc y + tileSum m c t.val := by
  unfold stepAt tileSum
  rw [dif_pos t.isLt]
  exact step_apply _ _ _ _ _ _ _

/-- At the first point of a row of tiles the accumulator is left at the step over the reset value. -/
theorem acc_reset (c : Dev nD) (t : Fin cfg0.N) (h0 : t.val % 8 = 0) :
    (outsAt0 m c t.val t.isLt).2 = stepAt m c t (k0_pay2 (F := Ideal)) := by
  have h1 : ¬t.val % 8 = 7 := by omega
  rw [outsAt0_A m c t h0 h1]
  exact acc_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- At every other point it is left at the step over what the point before left. -/
theorem acc_next (c : Dev nD) (t : Fin cfg0.N) (h0 : ¬t.val % 8 = 0) :
    (outsAt0 m c t.val t.isLt).2
      = stepAt m c t (outsAt0 m c (t.val - 1) (Nat.lt_of_le_of_lt (Nat.sub_le _ _) t.isLt)).2 := by
  by_cases h1 : t.val % 8 = 7
  · rw [outsAt0_C m c t h0 h1]
    exact acc_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)).2
  · rw [outsAt0_B m c t h0 h1]
    exact acc_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t)
      (outsAt0 m c (t.val - 1) (Nat.lt_of_le_of_lt (Nat.sub_le _ _) t.isLt)).2

/-- At the last point of a row of tiles the output block is left at the accumulator's value. -/
theorem out_last (c : Dev nD) (t : Fin cfg0.N) (h7 : t.val % 8 = 7) :
    (outsAt0 m c t.val t.isLt).1 = (outsAt0 m c t.val t.isLt).2 := by
  have h0 : ¬t.val % 8 = 0 := by omega
  rw [outsAt0_C m c t h0 h7]
  exact (out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7) (iblk m c 0 t) (iblk m c 1 t) (iblk m c 2 t) (iblk m c 3 t)
      (outsAt0 m c (t.val - 1) (Nat.lt_of_le_of_lt (Nat.sub_le _ _) t.isLt)).2).trans
    (acc_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7) (iblk m c 0 t) (iblk m c 1 t) (iblk m c 2 t) (iblk m c 3 t)
      (outsAt0 m c (t.val - 1) (Nat.lt_of_le_of_lt (Nat.sub_le _ _) t.isLt)).2).symm

/-- After point `t` the accumulator holds the sum of the tile sums from the first point of `t`'s row of tiles to `t`. -/
theorem acc_eq (c : Dev nD) (t : Fin cfg0.N) (y : S1x1x1.Idx) :
    (outsAt0 m c t.val t.isLt).2 y = 0 + ∑ s ∈ Finset.range (t.val % 8 + 1), tileSum m c (8 * (t.val / 8) + s) := by
  have hN : cfg0.N = 64 := N_0
  have h' : 8 * (t.val / 8) + t.val % 8 < cfg0.N := by have := t.isLt; omega
  rw [Pipeline.eq_accAt_of_mod (fun n h => (outsAt0 m c n h).2) 8
    (fun n h => stepAt m c ⟨n, h⟩ (k0_pay2 (F := Ideal))) (fun n h acc => stepAt m c ⟨n, h⟩ acc)
    (fun n h h0 => acc_reset m c ⟨n, h⟩ h0)
    (fun n h h0 => acc_next m c ⟨n + 1, h⟩ h0)
    (by decide) t.val t.isLt h']
  exact Pipeline.accAt_add_apply (fun n h => stepAt m c ⟨n, h⟩ (k0_pay2 (F := Ideal))) (fun n h acc => stepAt m c ⟨n, h⟩ acc)
    (fun _ => 0) (fun n _ => tileSum m c n) (8 * (t.val / 8)) 7
    (fun h y => by rw [stepAt_apply, reset_apply])
    (fun n h acc y _ _ => stepAt_apply m c ⟨n, h⟩ acc y)
    (t.val % 8) (by omega) h' y

end Cert.KernelIdeal.KValue
end
-- ==== Proof.KFinal.lean ====
/-
  The output array after the run, and the result of the host's last line.

  The pipeline writes the output block of grid point `t` back only at the last point of a row of tiles
  (`t % 8 = 7`), into entry `t / 8` of the `[8, 1, 1]` output array; these eight write-backs cover the array. So the
  array ends holding, at `I`, the sum of the eight tile sums of row of tiles `I`; and the host's last line, a sum over
  the whole array begun at zero, gives the result.
-/
import proofs.«100442_j10110353015379_1_alg».proof.Proof.KAcc
import Idealize.ShloMosaic.Lib.Pipeline.Value
import Idealize.ShloMosaic.Lib.StableHlo.Run
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.KValue

open Cert.KernelIdeal Cert.KernelIdeal.Gen

variable (m : (ℓ : Loc nD τ sig) → Buf (Elt Ideal) ℓ)

/-- The output array after the run: entry `I` is the sum of the tile sums of row of tiles `I`. -/
def rowTotals (c : Dev nD) : S8x1x1.Idx → EReal :=
  fun j => (0 : EReal) + ∑ s ∈ Finset.range 8, tileSum m c (8 * (j 0).val + s)

/-- Output block indices, decided over the grid: point `t`'s block is entry `t / 8`. -/
theorem idx4 : ∀ t : Fin cfg0.N, win0_4.index t (0 : Fin 3) = t.val / 8 ∧ win0_4.index t (1 : Fin 3) = 0
    ∧ win0_4.index t (2 : Fin 3) = 0 :=
  (by decide +kernel : ∀ t : Fin grid0.N, _)

/-- What the last point of a row of tiles writes back is its block of `rowTotals`. -/
theorem flushed_eq (c : Dev nD) (t : Fin cfg0.N) (hf : (cfg0.win 4).flush t = true) :
    (dats m 0 c).flushed 4 t = ((cfg0.win 4).blk t).view.read (Elt Ideal) (rowTotals m c) := by
  have h7 : t.val % 8 = 7 := (flush0_4 t).mp hf
  show (cfg0.win 4).cut (grid0.coords t) ((dats m 0 c).after 4 t) = _
  rw [after0_4, out_last m c t h7]
  funext y
  show (outsAt0 m c t.val t.isLt).2 y = rowTotals m c (((cfg0.win 4).blk t).view.emb y)
  rw [acc_eq m c t y, h7]
  obtain ⟨e0, e1, e2⟩ := idx4 t
  have hy : (((cfg0.win 4).blk t).view.emb y (0 : Fin 3)).val = t.val / 8 := by
    show win0_4.index t (0 : Fin 3) * 1 + 1 * (y 0).val = _
    have : (y 0).val < 1 := (y 0).isLt
    omega
  show _ = (0 : EReal) + ∑ s ∈ Finset.range 8, tileSum m c (8 * (((cfg0.win 4).blk t).view.emb y (0 : Fin 3)).val + s)
  rw [hy]

/-- An entry of the output array is in point `t`'s block iff each coordinate is in the block's range on its axis. -/
theorem mem_blk4 (t : Fin cfg0.N) (i : S8x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v27).slice (win0_4.rect t)).set ↔ _
  rw [View.set_slice_whole, Rect.mem_set_unit]
  exact Iff.rfl

/-- Every entry of the output array is written back by the last point of its row of tiles. -/
theorem cover4 (c : Dev nD) (i : S8x1x1.Idx) :
    ∃ t : Fin cfg0.N, (cfg0.win 4).flush t = true ∧ i ∈ ((cfg0.win 4).blk t).view.set := by
  have hi0 : (i 0).val < 8 := (i 0).isLt
  have hlt : 8 * (i 0).val + 7 < cfg0.N := lt_of_lt_of_eq (by omega : 8 * (i 0).val + 7 < 64) N_0.symm
  have hi1 : (i 1).val < 1 := (i 1).isLt
  have hi2 : (i 2).val < 1 := (i 2).isLt
  refine ⟨⟨8 * (i 0).val + 7, hlt⟩, (flush0_4 _).mpr (by show (8 * (i 0).val + 7) % 8 = 7; omega), ?_⟩
  rw [mem_blk4]
  obtain ⟨e0, e1, e2⟩ := idx4 ⟨8 * (i 0).val + 7, hlt⟩
  have e0' : win0_4.index ⟨8 * (i 0).val + 7, hlt⟩ (0 : Fin 3) = (8 * (i 0).val + 7) / 8 := e0
  intro a
  match a with
  | ⟨0, _⟩ =>
    show win0_4.index _ (0 : Fin 3) * 1 ≤ (i 0).val ∧ (i 0).val < win0_4.index _ (0 : Fin 3) * 1 + 1
    rw [e0']; omega
  | ⟨1, _⟩ =>
    show win0_4.index _ (1 : Fin 3) * 1 ≤ (i 1).val ∧ (i 1).val < win0_4.index _ (1 : Fin 3) * 1 + 1
    rw [e1]; omega
  | ⟨2, _⟩ =>
    show win0_4.index _ (2 : Fin 3) * 1 ≤ (i 2).val ∧ (i 2).val < win0_4.index _ (2 : Fin 3) * 1 + 1
    rw [e2]; omega

/-- The output array after the run. -/
theorem final4 (c : Dev nD) : (dats m 0 c).arrAt 4 cfg0.N = rowTotals m c :=
  (dats m 0 c).arrAt_eq_of_cover 4 (rowTotals m c) (flushed_eq m c) (cover4 c)

/-- The host's last line: the result is zero plus the sum of the output array's entries. -/
theorem tail_eq (c : Dev nD) :
    Pipeline.afterTail₀ cfgs (dats m) 0 (V0 m) [hostOps1] c main_v28
      = fun _ => (0 : EReal) + ∑ j : S8x1x1.Idx, rowTotals m c j := by
  unfold Pipeline.afterTail₀
  show StableHlo.after hostOps1 _ (Proc.devRef .tc main_v28) = _
  after_results
  rw [show Pipeline.withArrays (cfgs 0).spec c (V0 m c) (fun w => (dats m 0 c).arrAt w (cfgs 0).N)
      (Proc.devRef .tc main_v27) = rowTotals m c from
    (Pipeline.withArrays_arr spec0 launch0.win.arr_inj c _ _ 4).trans (final4 m c)]
  funext j
  simp only [Host.reduceAdd, Ideal.hostReduceAdd_def]
  rw [Ideal.hostReduceAdd_total reducesTo_S8x1x1_S_d0_1_2 (fun b => b.elim0) (rowTotals m c) _ j, constant_apply,
    Ideal.ofBits_zero_f32]

end Cert.KernelIdeal.KValue
end
-- ==== Proof.LibTileSum.lean ====
/-
  Regrouping a finite sum over `Fin (K * N)` into `K` consecutive tiles of `N` terms each.

  Position `m < K * N` is written `N * s + j` with tile `s < K` and offset `j < N`; a sum over all positions is then
  the sum over the tiles of each tile's own sum. Only commutativity and associativity of the addition are used, so
  the lemmas hold in any additive commutative monoid.
-/
import Mathlib.Data.Fintype.BigOperators
import Mathlib.Logic.Equiv.Fin.Basic

namespace Cert.Lib

open Finset

variable {β : Type*} [AddCommMonoid β]

/-- Offset `j < N` inside tile `s < K` is a position below `K * N`. -/
theorem tile_index_lt {K N : ℕ} (s : Fin K) (j : Fin N) : N * s.val + j.val < K * N :=
  calc N * s.val + j.val < N * s.val + N := Nat.add_lt_add_left j.isLt _
    _ = N * (s.val + 1) := (Nat.mul_succ _ _).symm
    _ ≤ N * K := Nat.mul_le_mul_left _ s.isLt
    _ = K * N := Nat.mul_comm _ _

/-- A sum over `K * N` positions is the sum over the `K` tiles of the sum over each tile's `N` offsets:
    `(s, j) ↦ N * s + j` is a bijection from pairs (tile, offset) onto positions. -/
theorem sum_fin_mul_eq_sum_tiles (K N : ℕ) (f : Fin (K * N) → β) :
    ∑ m : Fin (K * N), f m = ∑ s : Fin K, ∑ j : Fin N, f ⟨N * s.val + j.val, tile_index_lt s j⟩ := by
  rw [← (finProdFinEquiv : Fin K × Fin N ≃ Fin (K * N)).sum_comp f, Fintype.sum_prod_type]
  refine Finset.sum_congr rfl fun s _ => Finset.sum_congr rfl fun j _ => congrArg f (Fin.ext ?_)
  show j.val + N * s.val = N * s.val + j.val
  exact Nat.add_comm _ _

/-- The same with the tiles counted by `Finset.range K`: if `T s` is tile `s`'s own sum for every `s < K`, the sum
    over all positions is `∑ s ∈ range K, T s`. -/
theorem sum_fin_mul_eq_sum_range_of_tiles (K N : ℕ) (f : Fin (K * N) → β) (T : ℕ → β)
    (hT : ∀ s : Fin K, T s.val = ∑ j : Fin N, f ⟨N * s.val + j.val, tile_index_lt s j⟩) :
    ∑ m : Fin (K * N), f m = ∑ s ∈ Finset.range K, T s := by
  rw [sum_fin_mul_eq_sum_tiles K N f, ← Fin.sum_univ_eq_sum_range T K]
  exact Finset.sum_congr rfl fun s _ => (hT s).symm

/-- The same for a summand given as a function `g` of the position as a natural number: the sum over all positions
    is the sum over `s ∈ range K` of `∑ j : Fin N, g (N * s + j)`. -/
theorem sum_fin_mul_eq_sum_range (K N : ℕ) (f : Fin (K * N) → β) (g : ℕ → β) (hfg : ∀ m : Fin (K * N), f m = g m.val) :
    ∑ m : Fin (K * N), f m = ∑ s ∈ Finset.range K, ∑ j : Fin N, g (N * s + j.val) :=
  sum_fin_mul_eq_sum_range_of_tiles K N f (fun s => ∑ j : Fin N, g (N * s + j.val))
    fun s => Finset.sum_congr rfl fun j _ => (hfg ⟨N * s.val + j.val, tile_index_lt s j⟩).symm

/-! ## Four tiles of 1024 in 4096 positions

The three lemmas at `K = 4`, `N = 1024`, with the index type spelt `Fin 4096`. -/

/-- Offset `j < 1024` inside tile `s < 4` is a position below 4096. -/
theorem tile_index_lt_4096 (s : Fin 4) (j : Fin 1024) : 1024 * s.val + j.val < 4096 :=
  tile_index_lt (K := 4) (N := 1024) s j

/-- A sum over 4096 positions is the sum over four tiles of the sum over each tile's 1024 offsets. -/
theorem sum_fin4096_eq_sum_tiles (f : Fin 4096 → β) :
    ∑ m : Fin 4096, f m = ∑ s : Fin 4, ∑ j : Fin 1024, f ⟨1024 * s.val + j.val, tile_index_lt_4096 s j⟩ :=
  sum_fin_mul_eq_sum_tiles 4 1024 f

/-- The same with the four tiles counted by `Finset.range 4`, each tile's sum given as `T s`. -/
theorem sum_fin4096_eq_sum_range_of_tiles (f : Fin 4096 → β) (T : ℕ → β)
    (hT : ∀ s : Fin 4, T s.val = ∑ j : Fin 1024, f ⟨1024 * s.val + j.val, tile_index_lt_4096 s j⟩) :
    ∑ m : Fin 4096, f m = ∑ s ∈ Finset.range 4, T s :=
  sum_fin_mul_eq_sum_range_of_tiles 4 1024 f T hT

/-- The same for a summand given as a function `g` of the position as a natural number. -/
theorem sum_fin4096_eq_sum_range (f : Fin 4096 → β) (g : ℕ → β) (hfg : ∀ m : Fin 4096, f m = g m.val) :
    ∑ m : Fin 4096, f m = ∑ s ∈ Finset.range 4, ∑ j : Fin 1024, g (1024 * s + j.val) :=
  sum_fin_mul_eq_sum_range 4 1024 f g hfg

end Cert.Lib
-- ==== Proof.KSums.lean ====
/-
  Two facts about the 8 × 8 arrangement of 512 × 512 tiles over the 4096 × 4096 pairs of nodes.

  * The sum over all ordered pairs regroups by tiles: row i is 512 · I + p and column j is 512 · J + q with tile
    coordinates I, J below 8 and offsets p, q below 512; the array of eight per-row-of-tiles partial sums (shape
    8 × 1 × 1), each the sum over J of the tile's own sum, adds up to the sum over all pairs. Only commutativity
    and associativity of the addition are used, so the extended reals' infinities do no harm.
  * Two node numbers below 4096, computed as 32-bit words I · 512 + p and J · 512 + q, are equal as words exactly
    when they are equal as natural numbers: nothing wraps.
-/
import proofs.«100442_j10110353015379_1_alg».proof.Proof.LibTileSum
import Idealize.ShloMosaic.PureOps.Ideal
import Idealize.ShloMosaic.Lib.ValueIdx

noncomputable section

open scoped BigOperators

namespace Cert.Raa.KSums

open Idealize.ShloMosaic Idealize.ShloMosaic.ValueIdx

/-! ## Regrouping by tiles -/

/-- An index of an 8 × 1 × 1 array is its first coordinate. -/
def idx811Equiv : (⟨3, ![8, 1, 1]⟩ : Shape).Idx ≃ Fin 8 where
  toFun idx := idx 0
  invFun I := ix3 I (0 : Fin 1) (0 : Fin 1)
  left_inv idx := funext fun a => by
    match a with
    | ⟨0, _⟩ => rfl
    | ⟨1, _⟩ => exact Fin.ext (by have h : (idx 1).val < 1 := (idx 1).isLt; show 0 = (idx 1).val; omega)
    | ⟨2, _⟩ => exact Fin.ext (by have h : (idx 2).val < 1 := (idx 2).isLt; show 0 = (idx 2).val; omega)
  right_inv _ := rfl

/-- The eight partial sums, one per row of tiles, each begun at zero and added up from zero, are the sum over all
    ordered pairs. -/
theorem tiles_total (g : ℕ → ℕ → EReal) :
    (0 : EReal) + ∑ idx : (⟨3, ![8, 1, 1]⟩ : Shape).Idx,
        ((0 : EReal) + ∑ s ∈ Finset.range 8, ∑ p : Fin 512, ∑ q : Fin 512, g (512 * (idx 0).val + p.val) (512 * s + q.val))
      = ∑ i : Fin 4096, ∑ j : Fin 4096, g i.val j.val := by
  have hin : ∀ m : ℕ, ∑ j : Fin 4096, g m j.val = ∑ s ∈ Finset.range 8, ∑ q : Fin 512, g m (512 * s + q.val) := fun m =>
    Cert.Lib.sum_fin_mul_eq_sum_range 8 512 (fun j : Fin (8 * 512) => g m j.val) (fun t => g m t) (fun _ => rfl)
  have hout : ∑ i : Fin 4096, ∑ j : Fin 4096, g i.val j.val
      = ∑ I : Fin 8, ∑ p : Fin 512, ∑ j : Fin 4096, g (512 * I.val + p.val) j.val :=
    Cert.Lib.sum_fin_mul_eq_sum_tiles 8 512 (fun i : Fin (8 * 512) => ∑ j : Fin 4096, g i.val j.val)
  refine (zero_add _).trans ?_
  refine (Fintype.sum_equiv idx811Equiv _
    (fun I : Fin 8 => (0 : EReal) + ∑ s ∈ Finset.range 8, ∑ p : Fin 512, ∑ q : Fin 512, g (512 * I.val + p.val) (512 * s + q.val))
    (fun idx => rfl)).trans ?_
  refine Eq.trans ?_ hout.symm
  refine Finset.sum_congr rfl fun I _ => ?_
  refine (zero_add _).trans (Finset.sum_comm.trans ?_)
  exact Finset.sum_congr rfl fun p _ => (hin _).symm

/-! ## The diagonal test on words -/

/-- The word I · 512 + p is the number 512 · I + p: nothing wraps below 4096. -/
theorem word_toNat (I : ℕ) (hI : I < 8) (p : Fin 512) :
    (IntOp.addi (Scalar.muli (BitVec.ofNat 32 I) 512#32) (BitVec.ofNat 32 p.val)).toNat = 512 * I + p.val := by
  unfold IntOp.addi Scalar.muli IntOp.muli
  rw [BitVec.toNat_add, BitVec.toNat_mul, BitVec.toNat_ofNat, BitVec.toNat_ofNat, BitVec.toNat_ofNat]
  have := p.isLt
  omega

/-- The word comparison for equality decides equality of the node numbers. -/
theorem diag_word (I J : ℕ) (hI : I < 8) (hJ : J < 8) (p q : Fin 512) :
    IntOp.cmpi CmpIPredicate.eq (IntOp.addi (Scalar.muli (BitVec.ofNat 32 I) 512#32) (BitVec.ofNat 32 p.val))
        (IntOp.addi (Scalar.muli (BitVec.ofNat 32 J) 512#32) (BitVec.ofNat 32 q.val))
      = if 512 * I + p.val = 512 * J + q.val then 1#1 else 0#1 := by
  have hx := word_toNat I hI p
  have hy := word_toNat J hJ q
  generalize IntOp.addi (Scalar.muli (BitVec.ofNat 32 I) 512#32) (BitVec.ofNat 32 p.val) = x at hx ⊢
  generalize IntOp.addi (Scalar.muli (BitVec.ofNat 32 J) 512#32) (BitVec.ofNat 32 q.val) = y at hy ⊢
  show BitVec.ofBool (x == y) = _
  by_cases h : 512 * I + p.val = 512 * J + q.val
  · have e : x = y := BitVec.eq_of_toNat_eq (by rw [hx, hy, h])
    rw [if_pos h, e, beq_self_eq_true]; rfl
  · have e : ¬ x = y := fun e => h (by rw [← hx, ← hy, e])
    rw [if_neg h, beq_eq_false_iff_ne.mpr e]; rfl

end Cert.Raa.KSums

end
-- ==== Proof.KBlocks.lean ====
/-
  One entry of a grid point's masked tile is the specification's contribution of one ordered pair of nodes.

  Grid point t of the 8 × 8 grid is tile (I, J) = (t / 8, t % 8). Its block of the adjacency matrix is rows
  512·I … 512·I + 511 and columns 512·J … 512·J + 511; its three other blocks are the whole matrix of latent positions,
  the whole row of biases and the scale. Inside the body, the rows of the latent positions are loaded from row 512·I
  (for the tile's rows) and from row 512·J (for the tile's columns), the biases from positions 512·I and 512·J. So entry
  (p, q) of the tile works with node i = 512·I + p and node j = 512·J + q: its theta is the specification's theta of
  (i, j), the mask compares the 32-bit words I·512 + p and J·512 + q, which are equal exactly when i = j, and the entry
  is zero there and theta · A i j − softplus theta elsewhere: the specification's term.
-/
import proofs.«100442_j10110353015379_1_alg».proof.Proof.KMask
import proofs.«100442_j10110353015379_1_alg».proof.Proof.KSums
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.KValue

open Cert.KernelIdeal Cert.KernelIdeal.Gen

/-- Point t of the 8 × 8 grid is tile (t / 8, t % 8); the adjacency matrix's window is at that tile, the three other
    windows are whole arrays. -/
theorem grid_facts : ∀ t : Fin cfg0.N,
    (grid0.coords t 0).val = t.val / 8 ∧ (grid0.coords t 1).val = t.val % 8
    ∧ win0_0.index t (0 : Fin 2) = t.val / 8 ∧ win0_0.index t (1 : Fin 2) = t.val % 8
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Where the body's four loads start, at tile (I, J). -/
theorem off_facts : ∀ t : Fin cfg0.N,
    k0_off1 (grid0.coords t) 0 = 512 * (t.val / 8) ∧ k0_off1 (grid0.coords t) 1 = 0
    ∧ k0_off2 (grid0.coords t) 0 = 512 * (t.val % 8) ∧ k0_off2 (grid0.coords t) 1 = 0
    ∧ k0_off3 (grid0.coords t) 0 = 0 ∧ k0_off3 (grid0.coords t) 1 = 512 * (t.val / 8)
    ∧ k0_off4 (grid0.coords t) 0 = 0 ∧ k0_off4 (grid0.coords t) 1 = 512 * (t.val % 8) :=
  (by decide +kernel : ∀ t : Fin grid0.N, _)

section Blocks
variable (m : (ℓ : Loc nD τ sig) → Buf (Elt Ideal) ℓ) (c : Dev nD) (t : Fin cfg0.N)

theorem iblk0_at (p q : Fin 512) (hp : 512 * (t.val / 8) + p.val < 4096) (hq : 512 * (t.val % 8) + q.val < 4096) :
    (iblk m c 0 t : Vec Ideal S512x512 .f32) (ix2 p q)
      = (V m c main_arg0 : S4096x4096.Idx → EReal) (ix2 ⟨512 * (t.val / 8) + p.val, hp⟩ ⟨512 * (t.val % 8) + q.val, hq⟩) := by
  obtain ⟨-, -, e0, e1, -⟩ := grid_facts t
  unfold iblk
  rw [View.read_apply]
  show V m c main_arg0 _ = V m c main_arg0 _
  congr 1
  funext a
  apply Fin.ext
  match a with
  | ⟨0, _⟩ => show win0_0.index t (0 : Fin 2) * 512 + 1 * p.val = 512 * (t.val / 8) + p.val; rw [e0]; omega
  | ⟨1, _⟩ => show win0_0.index t (1 : Fin 2) * 512 + 1 * q.val = 512 * (t.val % 8) + q.val; rw [e1]; omega

theorem iblk1_eq : (iblk m c 1 t : Vec Ideal S4096x8 .f32) = (V m c main_v24 : S4096x8.Idx → EReal) := by
  obtain ⟨-, -, -, -, e0, e1, -⟩ := grid_facts t
  funext y
  unfold iblk
  rw [View.read_apply]
  show V m c main_v24 _ = V m c main_v24 y
  congr 1
  funext a
  apply Fin.ext
  match a with
  | ⟨0, _⟩ => show win0_1.index t (0 : Fin 2) * 4096 + 1 * (y 0).val = (y 0).val; rw [e0]; omega
  | ⟨1, _⟩ => show win0_1.index t (1 : Fin 2) * 8 + 1 * (y 1).val = (y 1).val; rw [e1]; omega

theorem iblk2_eq : (iblk m c 2 t : Vec Ideal S1x4096 .f32) = (V m c main_v25 : S1x4096.Idx → EReal) := by
  obtain ⟨-, -, -, -, -, -, e0, e1, -⟩ := grid_facts t
  funext y
  unfold iblk
  rw [View.read_apply]
  show V m c main_v25 _ = V m c main_v25 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 4096 + 1 * (y 1).val = (y 1).val; rw [e1]; omega

theorem iblk3_eq : (iblk m c 3 t : Vec Ideal S1x1 .f32) = (V m c main_v26 : S1x1.Idx → EReal) := by
  obtain ⟨-, -, -, -, -, -, -, -, e0, e1⟩ := grid_facts t
  funext y
  unfold iblk
  rw [View.read_apply]
  show V m c main_v26 _ = V m c main_v26 y
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 1 + 1 * (y 1).val = (y 1).val; rw [e1]; omega

end Blocks

section Reads
variable (i : grid0.Coords)

/-- The block of rows the body loads for the tile's rows starts at row n of the latent positions. -/
theorem rowsI_at (x1 : Vec Ideal S4096x8 .f32) (n : Nat) (h0 : k0_off1 i 0 = n) (h1 : k0_off1 i 1 = 0) (p : Fin 512) (k : Fin 8)
    (hn : n + p.val < 4096) : rowsI i x1 (ix2 p k) = x1 (ix2 ⟨n + p.val, hn⟩ k) := by
  show x1 _ = x1 _
  congr 1
  funext a
  apply Fin.ext
  match a with
  | ⟨0, _⟩ => show k0_off1 i 0 + 1 * p.val = n + p.val; rw [h0]; omega
  | ⟨1, _⟩ => show k0_off1 i 1 + 1 * k.val = k.val; rw [h1]; omega

theorem rowsJ_at (x1 : Vec Ideal S4096x8 .f32) (n : Nat) (h0 : k0_off2 i 0 = n) (h1 : k0_off2 i 1 = 0) (q : Fin 512) (k : Fin 8)
    (hn : n + q.val < 4096) : rowsJ i x1 (ix2 q k) = x1 (ix2 ⟨n + q.val, hn⟩ k) := by
  show x1 _ = x1 _
  congr 1
  funext a
  apply Fin.ext
  match a with
  | ⟨0, _⟩ => show k0_off2 i 0 + 1 * q.val = n + q.val; rw [h0]; omega
  | ⟨1, _⟩ => show k0_off2 i 1 + 1 * k.val = k.val; rw [h1]; omega

theorem biasI_at (x2 : Vec Ideal S1x4096 .f32) (n : Nat) (h0 : k0_off3 i 0 = 0) (h1 : k0_off3 i 1 = n) (p : Fin 512)
    (hn : n + p.val < 4096) : biasI i x2 (ix2 (0 : Fin 1) p) = x2 (ix2 (0 : Fin 1) ⟨n + p.val, hn⟩) := by
  show x2 _ = x2 _
  congr 1
  funext a
  apply Fin.ext
  match a with
  | ⟨0, _⟩ => show k0_off3 i 0 + 1 * 0 = 0; rw [h0]
  | ⟨1, _⟩ => show k0_off3 i 1 + 1 * p.val = n + p.val; rw [h1]; omega

theorem biasJ_at (x2 : Vec Ideal S1x4096 .f32) (n : Nat) (h0 : k0_off4 i 0 = 0) (h1 : k0_off4 i 1 = n) (q : Fin 512)
    (hn : n + q.val < 4096) : biasJ i x2 (ix2 (0 : Fin 1) q) = x2 (ix2 (0 : Fin 1) ⟨n + q.val, hn⟩) := by
  show x2 _ = x2 _
  congr 1
  funext a
  apply Fin.ext
  match a with
  | ⟨0, _⟩ => show k0_off4 i 0 + 1 * 0 = 0; rw [h0]
  | ⟨1, _⟩ => show k0_off4 i 1 + 1 * q.val = n + q.val; rw [h1]; omega

/-- The masked tile at (p, q): zero where the global row 512·I + p and the global column 512·J + q agree, the
    contribution elsewhere. -/
theorem masked_apply (x0 : Vec Ideal S512x512 .f32) (x1 : Vec Ideal S4096x8 .f32) (x2 : Vec Ideal S1x4096 .f32)
    (x3 : Vec Ideal S1x1 .f32) (I J : Nat) (hI : (i 0).val = I) (hJ : (i 1).val = J) (hI8 : I < 8) (hJ8 : J < 8)
    (p q : Fin 512) :
    masked i x0 x1 x2 x3 (ix2 p q)
      = if 512 * I + p.val = 512 * J + q.val then (0 : EReal) else contrib (F := Ideal) i x0 x1 x2 x3 (ix2 p q) := by
  have e0 : iota .tc S512x512 32 [0] iota_S512x512_d0_w32 (ix2 p q) = BitVec.ofNat 32 p.val :=
    iota_single_apply .tc S512x512 32 0 _ (ix2 p q)
  have e1 : iota .tc S512x512 32 [1] iota_S512x512_d1_w32 (ix2 p q) = BitVec.ofNat 32 q.val :=
    iota_single_apply .tc S512x512 32 1 _ (ix2 p q)
  unfold masked k0_pay15
  show Scalar.select (IntOp.cmpi .eq
      (IntOp.addi (Scalar.muli (BitVec.ofNat 32 (i 0).val) 512#32) (iota .tc S512x512 32 [0] iota_S512x512_d0_w32 (ix2 p q)))
      (IntOp.addi (Scalar.muli (BitVec.ofNat 32 (i 1).val) 512#32) (iota .tc S512x512 32 [1] iota_S512x512_d1_w32 (ix2 p q))))
    (Scalar.ofBits (F := Ideal) .f32 0x00000000#32) (contrib (F := Ideal) i x0 x1 x2 x3 (ix2 p q)) = _
  rw [e0, e1, hI, hJ, Cert.Raa.KSums.diag_word I J hI8 hJ8 p q]
  by_cases h : 512 * I + p.val = 512 * J + q.val
  · rw [if_pos h, if_pos h, select_one]; exact Ideal.ofBits_zero_f32
  · rw [if_neg h, if_neg h, select_zero]

/-- The masked tile's entry (p, q) at tile (I, J) is the specification's contribution of the ordered pair
    (512·I + p, 512·J + q), when the four blocks are read off a matrix of latent positions M, biases β, a scale a and an
    adjacency matrix A. -/
theorem masked_term (x0 : Vec Ideal S512x512 .f32) (x1 : Vec Ideal S4096x8 .f32) (x2 : Vec Ideal S1x4096 .f32)
    (x3 : Vec Ideal S1x1 .f32) (M : Fin 4096 → Fin 8 → EReal) (β : Fin 4096 → EReal) (a : EReal)
    (A : Fin 4096 → Fin 4096 → EReal) (I J : Nat) (hI8 : I < 8) (hJ8 : J < 8) (hI : (i 0).val = I) (hJ : (i 1).val = J)
    (ho1 : k0_off1 i 0 = 512 * I ∧ k0_off1 i 1 = 0) (ho2 : k0_off2 i 0 = 512 * J ∧ k0_off2 i 1 = 0)
    (ho3 : k0_off3 i 0 = 0 ∧ k0_off3 i 1 = 512 * I) (ho4 : k0_off4 i 0 = 0 ∧ k0_off4 i 1 = 512 * J)
    (p q : Fin 512) (hp : 512 * I + p.val < 4096) (hq : 512 * J + q.val < 4096)
    (hx0 : x0 (ix2 p q) = A ⟨512 * I + p.val, hp⟩ ⟨512 * J + q.val, hq⟩)
    (hx1 : ∀ n k, x1 (ix2 n k) = M n k) (hx2 : ∀ n, x2 (ix2 (0 : Fin 1) n) = β n) (hx3 : x3 (ix2 0 0) = a) :
    masked i x0 x1 x2 x3 (ix2 p q) = Cert.Raa.term M β a A ⟨512 * I + p.val, hp⟩ ⟨512 * J + q.val, hq⟩ := by
  have r1 : ∀ k, rowsI i x1 (ix2 p k) = M ⟨512 * I + p.val, hp⟩ k := fun k =>
    (rowsI_at i x1 (512 * I) ho1.1 ho1.2 p k hp).trans (hx1 _ _)
  have r2 : ∀ k, rowsJ i x1 (ix2 q k) = M ⟨512 * J + q.val, hq⟩ k := fun k =>
    (rowsJ_at i x1 (512 * J) ho2.1 ho2.2 q k hq).trans (hx1 _ _)
  have b1 : biasI i x2 (ix2 (0 : Fin 1) p) = β ⟨512 * I + p.val, hp⟩ :=
    (biasI_at i x2 (512 * I) ho3.1 ho3.2 p hp).trans (hx2 _)
  have b2 : biasJ i x2 (ix2 (0 : Fin 1) q) = β ⟨512 * J + q.val, hq⟩ :=
    (biasJ_at i x2 (512 * J) ho4.1 ho4.2 q hq).trans (hx2 _)
  have hθ : thetaT (rowsI i x1) (rowsJ i x1) (biasI i x2) (biasJ i x2) (x3 (ix2 0 0)) p q
      = Cert.Raa.theta M β a ⟨512 * I + p.val, hp⟩ ⟨512 * J + q.val, hq⟩ := by
    unfold thetaT Cert.Raa.theta Cert.Raa.sqdist
    rw [b1, b2, hx3]
    simp only [r1, r2]
  rw [masked_apply i x0 x1 x2 x3 I J hI hJ hI8 hJ8 p q, contrib_apply, hθ, hx0]
  unfold Cert.Raa.term
  refine if_congr ⟨fun h => Fin.ext h, fun h => congrArg Fin.val h⟩ rfl rfl

end Reads

section Assembled
variable (m : (ℓ : Loc nD τ sig) → Buf (Elt Ideal) ℓ) (c : Dev nD) (t : Fin cfg0.N)

/-- A row of tile t / 8 is a row of the matrix. -/
theorem tile_row_lt (p : Fin 512) : 512 * (t.val / 8) + p.val < 4096 := by
  have ht : t.val < grid0.N := t.isLt
  rw [N_0] at ht
  have := p.isLt
  omega

/-- A column of tile t % 8 is a column of the matrix. -/
theorem tile_col_lt (q : Fin 512) : 512 * (t.val % 8) + q.val < 4096 := by
  have := q.isLt
  omega

/-- THE MASKED TILE ENTRY IS THE SPECIFICATION'S TERM: at grid point t, entry (p, q) of the masked tile computed from
    the point's four blocks is the contribution of the ordered pair (512·(t / 8) + p, 512·(t % 8) + q), read off the
    arrays as the region finds them. -/
theorem masked_at (p q : Fin 512) (hp : 512 * (t.val / 8) + p.val < 4096) (hq : 512 * (t.val % 8) + q.val < 4096) :
    masked (grid0.coords t) (iblk m c 0 t) (iblk m c 1 t) (iblk m c 2 t) (iblk m c 3 t) (ix2 p q)
      = Cert.Raa.term (fun n k => (V m c main_v24 : S4096x8.Idx → EReal) (ix2 n k))
          (fun n => (V m c main_v25 : S1x4096.Idx → EReal) (ix2 (0 : Fin 1) n))
          ((V m c main_v26 : S1x1.Idx → EReal) (ix2 (0 : Fin 1) (0 : Fin 1)))
          (fun i j => (V m c main_arg0 : S4096x4096.Idx → EReal) (ix2 i j))
          ⟨512 * (t.val / 8) + p.val, hp⟩ ⟨512 * (t.val % 8) + q.val, hq⟩ := by
  obtain ⟨c0, c1, -⟩ := grid_facts t
  obtain ⟨o10, o11, o20, o21, o30, o31, o40, o41⟩ := off_facts t
  have ht : t.val < grid0.N := t.isLt
  rw [N_0] at ht
  exact masked_term (grid0.coords t) (iblk m c 0 t) (iblk m c 1 t) (iblk m c 2 t) (iblk m c 3 t)
    (fun n k => (V m c main_v24 : S4096x8.Idx → EReal) (ix2 n k))
    (fun n => (V m c main_v25 : S1x4096.Idx → EReal) (ix2 (0 : Fin 1) n))
    ((V m c main_v26 : S1x1.Idx → EReal) (ix2 (0 : Fin 1) (0 : Fin 1)))
    (fun i j => (V m c main_arg0 : S4096x4096.Idx → EReal) (ix2 i j))
    (t.val / 8) (t.val % 8) (by omega) (by omega) c0 c1 ⟨o10, o11⟩ ⟨o20, o21⟩ ⟨o30, o31⟩ ⟨o40, o41⟩ p q hp hq
    (iblk0_at m c t p q hp hq)
    (fun n k => congrFun (iblk1_eq m c t) (ix2 n k))
    (fun n => congrFun (iblk2_eq m c t) (ix2 (0 : Fin 1) n))
    (congrFun (iblk3_eq m c t) (ix2 (0 : Fin 1) (0 : Fin 1)))

/-- The same with the two bounds supplied. -/
theorem masked_at' (p q : Fin 512) :
    masked (grid0.coords t) (iblk m c 0 t) (iblk m c 1 t) (iblk m c 2 t) (iblk m c 3 t) (ix2 p q)
      = Cert.Raa.term (fun n k => (V m c main_v24 : S4096x8.Idx → EReal) (ix2 n k))
          (fun n => (V m c main_v25 : S1x4096.Idx → EReal) (ix2 (0 : Fin 1) n))
          ((V m c main_v26 : S1x1.Idx → EReal) (ix2 (0 : Fin 1) (0 : Fin 1)))
          (fun i j => (V m c main_arg0 : S4096x4096.Idx → EReal) (ix2 i j))
          ⟨512 * (t.val / 8) + p.val, tile_row_lt t p⟩ ⟨512 * (t.val % 8) + q.val, tile_col_lt t q⟩ :=
  masked_at m c t p q (tile_row_lt t p) (tile_col_lt t q)

end Assembled

end Cert.KernelIdeal.KValue
end
-- ==== Proof.LibFiniteEntries.lean ====
/-
  Finite entries, on the extended reals — general facts for a claim whose precondition says "every float input is finite":

  * the coercion of a finite sum of reals is the sum of the coercions (so an identity between finite sums of products
    of real entries can be proved in `ℝ` and carried back);
  * an extended real whose absolute value `max x (-x)` compares below the float `+∞` is a real;
  * `jnp.all(|a| < +∞)` — a reduction by `and`, over all axes, of that comparison against the broadcast float `+∞` —
    being true makes every entry of `a` a real, for an array `a` of any shape.
-/
import Idealize.ShloMosaic.PureOps.Ideal
import Idealize.ShloMosaic.PureOps.Ideal.Laws
import Idealize.ShloMosaic.Lib.ValueIdx
import Idealize.ShloMosaic.Lib.ReduceAll
import Idealize.ShloMosaic.Lib.Pipeline.Value

noncomputable section

open scoped BigOperators

namespace Idealize.ShloMosaic.FiniteEntries

open Idealize.ShloMosaic Idealize.ShloMosaic.ValueIdx

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The rank-0 shape has one index. -/
instance : Subsingleton (⟨0, ![]⟩ : Shape).Idx := ⟨fun _ _ => funext fun d => d.elim0⟩

/-- An extended real whose absolute value compares below the float `+∞` is a real: `max x (-x)` is `+∞` at both
    infinities. -/
theorem real_of_abs_lt (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- `jnp.all(|a| < +∞)` being true makes every entry of `a` a real. -/
theorem real_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : (⟨0, ![]⟩ : Shape).Idx → BitVec 1)
    (e : Host.reduce IntOp.andi
          (cmpf .olt (Host.absf a) (broadcastInDim s ![] hb (constant (F := Ideal) ⟨0, ![]⟩ .f32 0x7F800000#32)))
          init hr hu ix0 = 1#1)
    (i : s.Idx) : ∃ r : ℝ, a i = r := by
  have hi := Host.reduce_andi_all _ init hr hu ix0 e i
  refine real_of_abs_lt (a i) ?_
  rw [cmpf_apply, broadcastInDim_apply ![] hb _ i ix0 fun d => d.elim0] at hi
  exact hi

end Idealize.ShloMosaic.FiniteEntries

end
-- ==== Proof.LibSegLinear.lean ====
/-
  A segment sum is linear — the law on the extended reals, for real entries — with the closure of "is a real" under
  the operations a layer is made of, and two broadcast reads.

  A SEGMENT SUM takes rows `h e` (one per edge `e`), weights row `e` by a number `v e`, and adds the weighted rows that
  land on a given node. It is linear in the rows, so it commutes with a matrix applied on the right of every row:

      ∑ e landing, v e * (∑ k, h e k * w k)  =  ∑ k, (∑ e landing, v e * h e k) * w k .

  On the extended reals this needs the entries to be real numbers (distributivity fails at the infinities), so the law
  is proved in `ℝ` and carried over through the coercion. The sums start from the accumulator's `0`, as the scatter
  that computes them does.

  Also here: an extended real "is a real" (`IsReal`) and the operations that keep it so — sums, products, maxima and
  conditional terms — with which the reals are followed through a layer; and the reads at an index of the two
  broadcasts that turn a vector of edge weights into a matrix of the messages' shape.
-/
import Idealize.ShloMosaic.PureOps.Ideal
import Idealize.ShloMosaic.Lib.ValueIdx
import Idealize.ShloMosaic.Lib.Pipeline.Value
import proofs.«100442_j10110353015379_1_alg».proof.Proof.LibFiniteEntries

noncomputable section

open scoped BigOperators

namespace Idealize.ShloMosaic.SegLinear

open Idealize.ShloMosaic Idealize.ShloMosaic.ValueIdx Idealize.ShloMosaic.FiniteEntries

/-! ## Extended reals that are reals -/

/-- `x` is (the coercion of) a real number. -/
def IsReal (x : EReal) : Prop := ∃ r : ℝ, x = (r : EReal)

theorem isReal_coe (r : ℝ) : IsReal (r : EReal) := ⟨r, rfl⟩
theorem isReal_zero : IsReal (0 : EReal) := ⟨0, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.max {x y : EReal} (hx : IsReal x) (hy : IsReal y) : IsReal (max x y) := by
  rcases max_choice x y with h | h <;> rw [h] <;> assumption

theorem IsReal.ite {p : Prop} [Decidable p] {x y : EReal} (hx : IsReal x) (hy : IsReal y) : IsReal (if p then x else y) := by
  split_ifs <;> assumption

theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-! ## The segment sum is linear -/

theorem coe_ite_zero (p : Prop) [Decidable p] (a : ℝ) :
    (if p then (a : EReal) else 0) = ((if p then a else 0 : ℝ) : EReal) := by
  split_ifs <;> simp

/-- The law in `ℝ`: the matrix passes inside the conditional sum over the edges. -/
theorem seg_matmul_real {E K : Type} [Fintype E] [Fintype K] (land : E → Prop) [DecidablePred land]
    (v : E → ℝ) (h : E → K → ℝ) (w : K → ℝ) :
    ∑ e, (if land e then v e * ∑ k, h e k * w k else 0) = ∑ k, (∑ e, if land e then v e * h e k else 0) * w k := by
  simp only [Finset.sum_mul]
  rw [Finset.sum_comm]
  refine Finset.sum_congr rfl fun e _ => ?_
  split_ifs
  · rw [Finset.mul_sum]; exact Finset.sum_congr rfl fun k _ => (mul_assoc _ _ _).symm
  · simp

/-- The law on the extended reals, for real entries, both sums begun at the accumulator's zero. -/
theorem seg_matmul {E K : Type} [Fintype E] [Fintype K] (land : E → Prop) [DecidablePred land]
    (v : E → ℝ) (h : E → K → ℝ) (w : K → ℝ) :
    (0 : EReal) + ∑ e, (if land e then (v e : EReal) * ∑ k, (h e k : EReal) * (w k : EReal) else 0)
      = ∑ k, ((0 : EReal) + ∑ e, if land e then (v e : EReal) * (h e k : EReal) else 0) * (w k : EReal) := by
  have hL : ∀ e, (if land e then (v e : EReal) * ∑ k, (h e k : EReal) * (w k : EReal) else 0)
      = ((if land e then v e * ∑ k, h e k * w k else 0 : ℝ) : EReal) := fun e => by
    rw [← coe_ite_zero]
    refine if_congr Iff.rfl ?_ rfl
    rw [EReal.coe_mul, coe_sum]
    simp only [EReal.coe_mul]
  have hR : ∀ k e, (if land e then (v e : EReal) * (h e k : EReal) else 0)
      = ((if land e then v e * h e k else 0 : ℝ) : EReal) := fun k e => by
    rw [← coe_ite_zero, EReal.coe_mul]
  rw [zero_add, Finset.sum_congr rfl fun e _ => hL e, ← coe_sum]
  have hk : ∀ k, ((0 : EReal) + ∑ e, if land e then (v e : EReal) * (h e k : EReal) else 0) * (w k : EReal)
      = (((∑ e, if land e then v e * h e k else 0) * w k : ℝ) : EReal) := fun k => by
    rw [zero_add, Finset.sum_congr rfl fun e _ => hR k e, ← coe_sum, ← EReal.coe_mul]
  rw [Finset.sum_congr rfl fun k _ => hk k, ← coe_sum]
  exact congrArg _ (seg_matmul_real land v h w)

/-! ## The weights' broadcasts, read at an index -/

variable {α : Type}

/-- A vector kept as one column: entry `(e, 0)` is the vector's entry `e`. -/
theorem vec_as_column_apply {E : Nat} (hb : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] hb v (ix2 e z) = v (ix1 e) :=
  broadcastInDim_apply ![0] hb v (ix2 e z) (ix1 e) fun a => by
    match a with
    | ⟨0, _⟩ =>
      show e.val = if E = 1 then 0 else e.val
      split
      · have := e.isLt; omega
      · rfl

/-- A column repeated along the rows' direction: entry `(e, q)` is the column's entry `e`. -/
theorem column_along_rows_apply {E C : Nat} (hb : (⟨2, ![E, 1]⟩ : Shape).BroadcastsInDim ⟨2, ![E, C]⟩ ![0, 1])
    (u : (⟨2, ![E, 1]⟩ : Shape).Idx → α) (e : Fin E) (q : Fin C) :
    broadcastInDim ⟨2, ![E, C]⟩ ![0, 1] hb u (ix2 e q) = u (ix2 e (0 : Fin 1)) :=
  broadcastInDim_apply ![0, 1] hb u (ix2 e q) (ix2 e (0 : Fin 1)) fun a => by
    match a with
    | ⟨0, _⟩ =>
      show e.val = if E = 1 then 0 else e.val
      split
      · have := e.isLt; omega
      · rfl
    | ⟨1, _⟩ => rfl

end Idealize.ShloMosaic.SegLinear

end
-- ==== Proof.RealOps.lean ====
/-
  Extended reals that are reals, followed through the operations both programs are made of.

  On the extended reals the distributive law fails at the infinities, so before two arrangements of a sum of
  products can be compared their entries have to be shown real. Here: differences, negations, exponentials and
  quotients of reals; the maximum of finitely many reals (at least one) is a real, also when the fold starts from
  -∞; a softmax weight — an exponential divided by a nonempty sum of exponentials — is a real; and the
  associativity of a product of three matrices with real entries, proved in ℝ and carried over through the coercion.
-/
import Idealize.ShloMosaic.PureOps.Ideal
import Idealize.ShloMosaic.PureOps.Ideal.Laws
import proofs.«100442_j10110353015379_1_alg».proof.Proof.LibSegLinear

noncomputable section

open scoped BigOperators

namespace Cert.Raa.Finite

open Idealize.ShloMosaic Idealize.ShloMosaic.FiniteEntries Idealize.ShloMosaic.SegLinear

/-! ## Closure of the reals under the scalar operations -/

theorem isReal_neg {x : EReal} (hx : IsReal x) : IsReal (-x) := by
  obtain ⟨a, rfl⟩ := hx; exact ⟨-a, (EReal.coe_neg a).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

/-- The exponential of a real is a real. -/
theorem isReal_exp {x : EReal} (hx : IsReal x) : IsReal (Ideal.exp x) := by
  obtain ⟨a, rfl⟩ := hx; exact ⟨Real.exp a, rfl⟩

/-- A real divided by a nonzero real is a real. -/
theorem isReal_div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb]
  exact (isReal_coe a).mul (isReal_coe _)

/-- The single-precision pattern of -∞ is the bottom of the extended reals. -/
theorem ofBits_neg_inf : Ideal.ofBits .f32 0xFF800000#32 = (⊥ : EReal) := by simp [Ideal.ofBits, Ideal.ieee]

/-- Folding a maximum over finitely many reals, at least one of them, from -∞ gives a real. -/
theorem isReal_fold_max {ι : Type*} (op : EReal → EReal → EReal) [Std.Commutative op] [Std.Associative op]
    (hop : ∀ x y, op x y = max x y) (s : Finset ι) (hs : s.Nonempty) (f : ι → EReal) (hf : ∀ i, IsReal (f i)) :
    IsReal (s.fold op ⊥ f) := by
  induction hs using Finset.Nonempty.cons_induction with
  | singleton a => rw [Finset.fold_singleton, hop, max_eq_left bot_le]; exact hf a
  | cons a s ha hs ih => rw [Finset.fold_cons, hop]; exact (hf a).max ih

/-- A softmax weight is a real: e^y / (0 + the sum over k of e^(x k)) for real y and real x k, over a nonempty
    range — the denominator is a positive real. -/
theorem isReal_softmax {ι : Type*} [Fintype ι] [Nonempty ι] (x : ι → EReal) (hx : ∀ k, IsReal (x k)) (y : EReal)
    (hy : IsReal y) : IsReal (Ideal.div (Ideal.exp y) (0 + ∑ k, Ideal.exp (x k))) := by
  choose x' hx' using hx
  have he : ∀ k, Ideal.exp (x k) = ((Real.exp (x' k) : ℝ) : EReal) := fun k => by rw [hx' k]; rfl
  simp only [he]
  rw [zero_add, ← coe_sum]
  have hpos : (0 : ℝ) < ∑ k, Real.exp (x' k) := Finset.sum_pos (fun i _ => Real.exp_pos _) Finset.univ_nonempty
  rw [Ideal.div_coe hpos.ne']
  exact (isReal_exp hy).mul (isReal_coe _)

/-! ## Associativity of the triple product, for real entries -/

/-- In ℝ. -/
theorem triple_real {K N : Type} [Fintype K] [Fintype N] (a : N → ℝ) (c : N → K → ℝ) (b : K → ℝ) :
    ∑ k, (∑ n, a n * c n k) * b k = ∑ n, a n * ∑ k, c n k * b k := by
  simp only [Finset.sum_mul, Finset.mul_sum]
  rw [Finset.sum_comm]
  exact Finset.sum_congr rfl fun n _ => Finset.sum_congr rfl fun k _ => mul_assoc _ _ _

/-- On the extended reals, for real entries. -/
theorem triple_ereal {K N : Type} [Fintype K] [Fintype N] (a : N → EReal) (c : N → K → EReal) (b : K → EReal)
    (ha : ∀ n, IsReal (a n)) (hc : ∀ n k, IsReal (c n k)) (hb : ∀ k, IsReal (b k)) :
    ∑ k, (∑ n, a n * c n k) * b k = ∑ n, a n * ∑ k, c n k * b k := by
  choose a' ha' using ha
  choose c' hc' using hc
  choose b' hb' using hb
  simp only [ha', hc', hb', ← EReal.coe_mul, ← coe_sum]
  exact congrArg _ (triple_real a' c' b')

end Cert.Raa.Finite

end
-- ==== Proof.Latent.lean ====
/-
  The latent positions.

  Both programs turn the two input matrices into softmax weights — each column of the 8 × 4096 matrix and each
  column of the 4096 × 8 matrix is shifted by its maximum, exponentiated and divided by the column's sum — and then
  multiply three matrices: weights (8 × 4096), weights (4096 × 8), weights (8 × 4096). One program multiplies the
  last two first, the other the first two, and both transpose the result into one row of eight coordinates per node.
  The inputs being real, every column maximum is a real, so every softmax weight is a real, and for real entries
  the two orders of multiplication agree.
-/
import proofs.«100442_j10110353015379_1_alg».proof.Proof.Gen.KernelIdeal
import proofs.«100442_j10110353015379_1_alg».proof.Proof.Gen.ReferenceIdeal.Read
import proofs.«100442_j10110353015379_1_alg».proof.Proof.RealOps
import Idealize.ShloMosaic.Lib.ValueIdx
import Idealize.ShloMosaic.Lib.Pipeline.Value
import Idealize.ShloMosaic.PureOps.Ideal.Laws

noncomputable section

open scoped BigOperators

namespace Cert.Raa.Latent

open Idealize.ShloMosaic Idealize.ShloMosaic.ValueIdx Idealize.ShloMosaic.FiniteEntries Idealize.ShloMosaic.SegLinear
open Cert.ReferenceIdeal Cert.ReferenceIdeal.Gen Cert.ReferenceIdeal.Read Cert.Raa.Finite

/-! ## The softmax weights are reals -/

/-- The column maxima of the 8 × 4096 input are reals. -/
theorem isReal_colmax_Z (Z : (⟨S8x4096, .f32⟩ : BufTy).Contents (Elt Ideal)) (hZ : ∀ i, IsReal (Z i)) (j : S4096.Idx) :
    IsReal (val_main_v7 (F := Ideal) Z j) := by
  rw [val_main_v7_apply, val_main_v6_apply, val_main_cst_0_apply]
  show IsReal (max (Ideal.ofBits .f32 0xFF800000#32) (val_main_v5 (F := Ideal) Z j))
  rw [ofBits_neg_inf, max_eq_right bot_le]
  rw [show val_main_v5 (F := Ideal) Z j = _ from
    Host.reduce_eq_fold_single (FloatOps.maximumf (F := Ideal) (φ := .f32)) Z (val_main_cst (F := Ideal))
      reducesTo_S8x4096_S4096_d0 (by decide) h_S_ j, val_main_cst_apply]
  show IsReal (Finset.fold (FloatOps.maximumf (F := Ideal) (φ := .f32)) (Ideal.ofBits .f32 0xFF800000#32) _ _)
  rw [ofBits_neg_inf]
  have : Nonempty (Fin (S8x4096.size (0 : Fin S8x4096.rank))) := ⟨⟨0, by decide⟩⟩
  exact isReal_fold_max _ (fun _ _ => rfl) _ Finset.univ_nonempty _ (fun k => hZ _)

/-- Every weight of the 8 × 4096 softmax is a real. -/
theorem isReal_Zs (Z : (⟨S8x4096, .f32⟩ : BufTy).Contents (Elt Ideal)) (hZ : ∀ i, IsReal (Z i)) (i : S8x4096.Idx) :
    IsReal (val_main_v15 (F := Ideal) Z i) := by
  have e11 : ∀ i' : S8x4096.Idx, val_main_v11 (F := Ideal) Z i'
      = Ideal.exp (Z i' - val_main_v7 (F := Ideal) Z (idx_main_v8 (idx_main_v9 i'))) := fun i' => by
    rw [val_main_v11_apply, val_main_v10_apply, val_main_v9_apply, val_main_v8_apply]; rfl
  rw [val_main_v15_apply, val_main_v14_apply, val_main_v13_apply, val_main_v12_apply, val_main_cst_1_apply]
  simp only [e11]
  show IsReal (Ideal.div _ (Ideal.ofBits .f32 0x00000000#32 + _))
  rw [Ideal.ofBits_zero_f32]
  exact isReal_softmax _ (fun k => isReal_sub (hZ _) (isReal_colmax_Z Z hZ _)) _ (isReal_sub (hZ _) (isReal_colmax_Z Z hZ _))

/-- The column maxima of the 4096 × 8 input are reals. -/
theorem isReal_colmax_C (C : (⟨S4096x8, .f32⟩ : BufTy).Contents (Elt Ideal)) (hC : ∀ i, IsReal (C i)) (j : S8.Idx) :
    IsReal (val_main_v18 (F := Ideal) C j) := by
  rw [val_main_v18_apply, val_main_v17_apply, val_main_cst_3_apply]
  show IsReal (max (Ideal.ofBits .f32 0xFF800000#32) (val_main_v16 (F := Ideal) C j))
  rw [ofBits_neg_inf, max_eq_right bot_le]
  rw [show val_main_v16 (F := Ideal) C j = _ from
    Host.reduce_eq_fold_single (FloatOps.maximumf (F := Ideal) (φ := .f32)) C (val_main_cst_2 (F := Ideal))
      reducesTo_S4096x8_S8_d0 (by decide) h_S_ j, val_main_cst_2_apply]
  show IsReal (Finset.fold (FloatOps.maximumf (F := Ideal) (φ := .f32)) (Ideal.ofBits .f32 0xFF800000#32) _ _)
  rw [ofBits_neg_inf]
  have : Nonempty (Fin (S4096x8.size (0 : Fin S4096x8.rank))) := ⟨⟨0, by decide⟩⟩
  exact isReal_fold_max _ (fun _ _ => rfl) _ Finset.univ_nonempty _ (fun k => hC _)

/-- Every weight of the 4096 × 8 softmax is a real. -/
theorem isReal_Cs (C : (⟨S4096x8, .f32⟩ : BufTy).Contents (Elt Ideal)) (hC : ∀ i, IsReal (C i)) (i : S4096x8.Idx) :
    IsReal (val_main_v26 (F := Ideal) C i) := by
  have e22 : ∀ i' : S4096x8.Idx, val_main_v22 (F := Ideal) C i'
      = Ideal.exp (C i' - val_main_v18 (F := Ideal) C (idx_main_v19 (idx_main_v20 i'))) := fun i' => by
    rw [val_main_v22_apply, val_main_v21_apply, val_main_v20_apply, val_main_v19_apply]; rfl
  rw [val_main_v26_apply, val_main_v25_apply, val_main_v24_apply, val_main_v23_apply, val_main_cst_4_apply]
  simp only [e22]
  show IsReal (Ideal.div _ (Ideal.ofBits .f32 0x00000000#32 + _))
  rw [Ideal.ofBits_zero_f32]
  exact isReal_softmax _ (fun k => isReal_sub (hC _) (isReal_colmax_C C hC _)) _ (isReal_sub (hC _) (isReal_colmax_C C hC _))

/-! ## The two products of three matrices, read at an index -/

/-- The first product of the second program: the 8 × 4096 weights times the 4096 × 8 weights. -/
abbrev dZC := Cert.KernelIdeal.dot_S8x4096_S4096x8_S8x8_1_0_0_1_n_n
/-- Its second product: that 8 × 8 matrix times the 8 × 4096 weights. -/
abbrev dGZ := Cert.KernelIdeal.dot_S8x8_S8x4096_S8x4096_1_0_0_1_n_n

/-- Entry (k, k') of (8 × 4096) · (4096 × 8) is the sum over the 4096 nodes. -/
theorem dotZC_apply (L : (⟨S8x4096, .f32⟩ : BufTy).Contents (Elt Ideal)) (R : (⟨S4096x8, .f32⟩ : BufTy).Contents (Elt Ideal))
    (k k' : Fin 8) :
    Host.dotGeneral (F := Ideal) (φ₁ := .f32) (φ₂ := .f32) dZC none L R (ix2 k k') = ∑ n : Fin 4096, L (ix2 k n) * R (ix2 n k') := by
  simp only [Host.dotGeneral]
  rw [Ideal.dotGeneral_apply, ← Equiv.sum_comp (contrEquiv1 dZC 4096 rfl rfl).symm]
  refine Finset.sum_congr rfl fun n _ => ?_
  have hn := contrEquiv1_symm_val dZC 4096 rfl rfl n
  have el : dZC.lhsIdx (ix2 k k') ((contrEquiv1 dZC 4096 rfl rfl).symm n) = ix2 k n := funext fun a => Fin.ext (by
    match a with
    | ⟨0, _⟩ =>
      show (dZC.lhsIdx (ix2 k k') _ 0).val = k.val
      unfold DotDims.lhsIdx
      rw [dif_neg (show ¬(0 : Fin S8x4096.rank) ∈ dZC.lhsBatch by decide),
        dif_pos (show (0 : Fin S8x4096.rank) ∈ dZC.lhsNonContracting by decide)]
      rfl
    | ⟨1, _⟩ => exact (dZC.lhsIdx_val_of_single rfl (ix2 k k') _).trans hn)
  have er : dZC.rhsIdx (ix2 k k') ((contrEquiv1 dZC 4096 rfl rfl).symm n) = ix2 n k' := funext fun a => Fin.ext (by
    match a with
    | ⟨0, _⟩ => exact (dZC.rhsIdx_val_of_single rfl (ix2 k k') _).trans hn
    | ⟨1, _⟩ =>
      show (dZC.rhsIdx (ix2 k k') _ 1).val = k'.val
      unfold DotDims.rhsIdx
      rw [dif_neg (show ¬(1 : Fin S4096x8.rank) ∈ dZC.rhsBatch by decide),
        dif_pos (show (1 : Fin S4096x8.rank) ∈ dZC.rhsNonContracting by decide)]
      rfl)
  rw [el, er]

/-- Entry (k, n) of (8 × 8) · (8 × 4096) is the sum over the eight coordinates. -/
theorem dotGZ_apply (L : (⟨Cert.KernelIdeal.S8x8, .f32⟩ : BufTy).Contents (Elt Ideal)) (R : (⟨S8x4096, .f32⟩ : BufTy).Contents (Elt Ideal))
    (k : Fin 8) (n : Fin 4096) :
    Host.dotGeneral (F := Ideal) (φ₁ := .f32) (φ₂ := .f32) dGZ none L R (ix2 k n) = ∑ k' : Fin 8, L (ix2 k k') * R (ix2 k' n) := by
  simp only [Host.dotGeneral]
  rw [Ideal.dotGeneral_apply, ← Equiv.sum_comp (contrEquiv1 dGZ 8 rfl rfl).symm]
  refine Finset.sum_congr rfl fun k' _ => ?_
  have hk := contrEquiv1_symm_val dGZ 8 rfl rfl k'
  have el : dGZ.lhsIdx (ix2 k n) ((contrEquiv1 dGZ 8 rfl rfl).symm k') = ix2 k k' := funext fun a => Fin.ext (by
    match a with
    | ⟨0, _⟩ =>
      show (dGZ.lhsIdx (ix2 k n) _ 0).val = k.val
      unfold DotDims.lhsIdx
      rw [dif_neg (show ¬(0 : Fin Cert.KernelIdeal.S8x8.rank) ∈ dGZ.lhsBatch by decide),
        dif_pos (show (0 : Fin Cert.KernelIdeal.S8x8.rank) ∈ dGZ.lhsNonContracting by decide)]
      rfl
    | ⟨1, _⟩ => exact (dGZ.lhsIdx_val_of_single rfl (ix2 k n) _).trans hk)
  have er : dGZ.rhsIdx (ix2 k n) ((contrEquiv1 dGZ 8 rfl rfl).symm k') = ix2 k' n := funext fun a => Fin.ext (by
    match a with
    | ⟨0, _⟩ => exact (dGZ.rhsIdx_val_of_single rfl (ix2 k n) _).trans hk
    | ⟨1, _⟩ =>
      show (dGZ.rhsIdx (ix2 k n) _ 1).val = n.val
      unfold DotDims.rhsIdx
      rw [dif_neg (show ¬(1 : Fin S8x4096.rank) ∈ dGZ.rhsBatch by decide),
        dif_pos (show (1 : Fin S8x4096.rank) ∈ dGZ.rhsNonContracting by decide)]
      rfl)
  rw [el, er]

/-- The second program's latent positions: (weights · weights) · weights, transposed. -/
def KM (Z : (⟨S8x4096, .f32⟩ : BufTy).Contents (Elt Ideal)) (C : (⟨S4096x8, .f32⟩ : BufTy).Contents (Elt Ideal)) :
    (⟨S4096x8, .f32⟩ : BufTy).Contents (Elt Ideal) :=
  transpose Cert.KernelIdeal.S4096x8 [1, 0]
    (Host.dotGeneral (F := Ideal) (φ₁ := .f32) (φ₂ := .f32) Cert.KernelIdeal.dot_S8x8_S8x4096_S8x4096_1_0_0_1_n_n none
      (Host.dotGeneral (F := Ideal) (φ₁ := .f32) (φ₂ := .f32) Cert.KernelIdeal.dot_S8x4096_S4096x8_S8x8_1_0_0_1_n_n none
        (val_main_v15 (F := Ideal) Z) (val_main_v26 (F := Ideal) C))
      (val_main_v15 (F := Ideal) Z))
    Cert.KernelIdeal.Gen.transposes_S8x4096_S4096x8_1_0

/-- Node n, coordinate k of the second program's latent positions. -/
theorem KM_apply (Z : (⟨S8x4096, .f32⟩ : BufTy).Contents (Elt Ideal)) (C : (⟨S4096x8, .f32⟩ : BufTy).Contents (Elt Ideal))
    (n : Fin 4096) (k : Fin 8) :
    KM Z C (ix2 n k) = ∑ k' : Fin 8, (∑ n' : Fin 4096, val_main_v15 (F := Ideal) Z (ix2 k n') * val_main_v26 (F := Ideal) C (ix2 n' k'))
      * val_main_v15 (F := Ideal) Z (ix2 k' n) := by
  unfold KM
  rw [transpose_apply [1, 0] _ Cert.KernelIdeal.Gen.transposes_S8x4096_S4096x8_1_0 (ix2 n k) (ix2 k n) (fun b => match b with
    | ⟨0, _⟩ => rfl
    | ⟨1, _⟩ => rfl)]
  rw [dotGZ_apply]
  exact Finset.sum_congr rfl fun k' _ => by rw [dotZC_apply]

/-- Node n, coordinate k of the first program's latent positions: weights · (weights · weights), transposed. -/
theorem refM_apply (Z : (⟨S8x4096, .f32⟩ : BufTy).Contents (Elt Ideal)) (C : (⟨S4096x8, .f32⟩ : BufTy).Contents (Elt Ideal))
    (n : Fin 4096) (k : Fin 8) :
    val_main_v29 (F := Ideal) Z C (ix2 n k) = ∑ n' : Fin 4096, val_main_v15 (F := Ideal) Z (ix2 k n')
      * ∑ k' : Fin 8, val_main_v26 (F := Ideal) C (ix2 n' k') * val_main_v15 (F := Ideal) Z (ix2 k' n) := by
  have e29 : idx_main_v29 (ix2 n k) = ix2 k n := funext fun a => Fin.ext (by match a with | ⟨0, _⟩ => rfl | ⟨1, _⟩ => rfl)
  have el28 : ∀ n' : Fin 4096, lidx_main_v28 (ix2 k n) n' = ix2 k n' := fun n' =>
    funext fun a => Fin.ext (by match a with | ⟨0, _⟩ => rfl | ⟨1, _⟩ => rfl)
  have er28 : ∀ n' : Fin 4096, ridx_main_v28 (ix2 k n) n' = ix2 n' n := fun n' =>
    funext fun a => Fin.ext (by match a with | ⟨0, _⟩ => rfl | ⟨1, _⟩ => rfl)
  have el27 : ∀ (n' : Fin 4096) (k' : Fin 8), lidx_main_v27 (ix2 n' n) k' = ix2 n' k' := fun n' k' =>
    funext fun a => Fin.ext (by match a with | ⟨0, _⟩ => rfl | ⟨1, _⟩ => rfl)
  have er27 : ∀ (n' : Fin 4096) (k' : Fin 8), ridx_main_v27 (ix2 n' n) k' = ix2 k' n := fun n' k' =>
    funext fun a => Fin.ext (by match a with | ⟨0, _⟩ => rfl | ⟨1, _⟩ => rfl)
  rw [val_main_v29_apply, e29, val_main_v28_apply]
  refine Finset.sum_congr rfl fun n' _ => ?_
  rw [el28, er28, val_main_v27_apply]
  refine congrArg _ (Finset.sum_congr rfl fun k' _ => ?_)
  rw [el27, er27]

/-- THE LAW: for real inputs the two programs' latent positions are the same, entry by entry. -/
theorem KM_eq_ref (Z : (⟨S8x4096, .f32⟩ : BufTy).Contents (Elt Ideal)) (C : (⟨S4096x8, .f32⟩ : BufTy).Contents (Elt Ideal))
    (hZ : ∀ i, IsReal (Z i)) (hC : ∀ i, IsReal (C i)) (n : Fin 4096) (k : Fin 8) :
    KM Z C (ix2 n k) = val_main_v29 (F := Ideal) Z C (ix2 n k) := by
  rw [KM_apply, refM_apply]
  exact triple_ereal (fun n' => val_main_v15 (F := Ideal) Z (ix2 k n')) (fun n' k' => val_main_v26 (F := Ideal) C (ix2 n' k'))
    (fun k' => val_main_v15 (F := Ideal) Z (ix2 k' n)) (fun _ => isReal_Zs Z hZ _) (fun _ _ => isReal_Cs C hC _)
    (fun _ => isReal_Zs Z hZ _)

/-- The latent positions have real entries. -/
theorem isReal_M (Z : (⟨S8x4096, .f32⟩ : BufTy).Contents (Elt Ideal)) (C : (⟨S4096x8, .f32⟩ : BufTy).Contents (Elt Ideal))
    (hZ : ∀ i, IsReal (Z i)) (hC : ∀ i, IsReal (C i)) (i : S4096x8.Idx) :
    IsReal (val_main_v29 (F := Ideal) Z C i) := by
  rw [val_main_v29_apply, val_main_v28_apply]
  refine isReal_sum _ _ fun n' _ => (isReal_Zs Z hZ _).mul ?_
  rw [val_main_v27_apply]
  exact isReal_sum _ _ fun k' _ => (isReal_Cs C hC _).mul (isReal_Zs Z hZ _)

end Cert.Raa.Latent

end
-- ==== Proof.KHost.lean ====
/-
  What the second program's host lines leave in the buffers its tiled computation reads.

  Before the tiled computation the host lines compute, from the two input matrices, the two softmaxes, the product
  (weights · weights) · weights and its transpose — the latent positions, one row of eight coordinates per node —
  and re-lay the bias vector as one row of 4096 entries and the scale as a 1 × 1 array. Here each of these three
  buffers, as the tiled computation finds it, is read back as a function of the input arrays: the latent positions
  are the term whose entries were compared with the first program's, the bias row at (0, n) is the bias of node n,
  and the 1 × 1 array holds the scale.
-/
import proofs.«100442_j10110353015379_1_alg».proof.Proof.Gen.KernelIdeal.Frame
import proofs.«100442_j10110353015379_1_alg».proof.Proof.Latent
import Idealize.ShloMosaic.Lib.ValueLayout

set_option maxRecDepth 16384

noncomputable section

namespace Cert.Raa.KHost

open Idealize.ShloMosaic Idealize.ShloMosaic.TcCoe Idealize.SL.Sem Idealize.ShloMosaic.StableHlo
  Idealize.ShloMosaic.ValueIdx
open Cert.KernelIdeal Cert.KernelIdeal.Gen

variable (m : (ℓ : Loc nD τ sig) → Buf (Elt Ideal) ℓ) (c : Dev nD)

/-- The latent positions as the tiled computation finds them: (weights · weights) · weights, transposed, of the
    two input matrices. -/
theorem V_main_v24 :
    V (F := Ideal) m c main_v24
      = Cert.Raa.Latent.KM (m ((c.tc : Thread nD τ).loc main_arg3)) (m ((c.tc : Thread nD τ).loc main_arg4)) := by
  show StableHlo.after hostOps0 (fun b => m (c, b)) (Proc.devRef .tc main_v24) = _
  after_results_simp
  rfl

/-- The bias row as the tiled computation finds it: the bias vector re-laid as one row. -/
theorem V_main_v25 :
    V (F := Ideal) m c main_v25 = shapeCast S1x4096 (m ((c.tc : Thread nD τ).loc main_arg1)) shapeCasts_S4096_S1x4096 := by
  show StableHlo.after hostOps0 (fun b => m (c, b)) (Proc.devRef .tc main_v25) = _
  after_results
  rfl

/-- Entry (0, n) of the bias row is the bias of node n. -/
theorem V_main_v25_apply (n : Fin 4096) :
    (V (F := Ideal) m c main_v25 : (⟨S1x4096, .f32⟩ : BufTy).Contents (Elt Ideal)) (ix2 (0 : Fin 1) n)
      = (m ((c.tc : Thread nD τ).loc main_arg1) : (⟨S4096, .f32⟩ : BufTy).Contents (Elt Ideal)) (ix1 n) :=
  (congrFun (V_main_v25 m c) _).trans (shapeCast_a_1a_apply _ _ (0 : Fin 1) n)

/-- The scale as the tiled computation finds it: the one-entry vector re-laid as a 1 × 1 array. -/
theorem V_main_v26 :
    V (F := Ideal) m c main_v26 = shapeCast S1x1 (m ((c.tc : Thread nD τ).loc main_arg2)) shapeCasts_S1_S1x1 := by
  show StableHlo.after hostOps0 (fun b => m (c, b)) (Proc.devRef .tc main_v26) = _
  after_results
  rfl

/-- Its one entry is the scale. -/
theorem V_main_v26_apply :
    (V (F := Ideal) m c main_v26 : (⟨S1x1, .f32⟩ : BufTy).Contents (Elt Ideal)) (ix2 (0 : Fin 1) (0 : Fin 1))
      = (m ((c.tc : Thread nD τ).loc main_arg2) : (⟨S1, .f32⟩ : BufTy).Contents (Elt Ideal)) (ix1 (0 : Fin 1)) :=
  (congrFun (V_main_v26 m c) _).trans (shapeCast_a_1a_apply _ _ (0 : Fin 1) (0 : Fin 1))

end Cert.Raa.KHost

end
-- ==== Proof.KRun.lean ====
/-
  The kernel's result is the specification's total, and its run.

  Each tile sum is the sum of the specification's terms over the tile's pairs of nodes; the 8 × 8 tiles partition the
  4096 × 4096 pairs; so the sum of the output array's eight entries is the sum over all pairs. The latent positions the
  region finds are the product `(Zs · Cs) · Zs` transposed, the biases and the scale the inputs reshaped, the adjacency
  matrix the input itself.
-/
import proofs.«100442_j10110353015379_1_alg».proof.Proof.KFinal
import proofs.«100442_j10110353015379_1_alg».proof.Proof.KBlocks
import proofs.«100442_j10110353015379_1_alg».proof.Proof.KSums
import proofs.«100442_j10110353015379_1_alg».proof.Proof.KHost

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.KValue

open Cert.KernelIdeal Cert.KernelIdeal.Gen

variable (m : (ℓ : Loc nD τ sig) → Buf (Elt Ideal) ℓ)

/-- The specification's arguments as the region finds them. -/
abbrev latV (c : Dev nD) : Fin 4096 → Fin 8 → EReal := fun n k => (V m c main_v24 : S4096x8.Idx → EReal) (ix2 n k)
abbrev biasV (c : Dev nD) : Fin 4096 → EReal := fun n => (V m c main_v25 : S1x4096.Idx → EReal) (ix2 (0 : Fin 1) n)
abbrev scaleV (c : Dev nD) : EReal := (V m c main_v26 : S1x1.Idx → EReal) (ix2 (0 : Fin 1) (0 : Fin 1))
abbrev adjV (c : Dev nD) : Fin 4096 → Fin 4096 → EReal := fun i j => (V m c main_arg0 : S4096x4096.Idx → EReal) (ix2 i j)

/-- The contribution of the pair of nodes numbered `a`, `b` (zero when a number is out of range). -/
def pairTerm (c : Dev nD) (a b : ℕ) : EReal :=
  if h : a < 4096 ∧ b < 4096 then Cert.Raa.term (latV m c) (biasV m c) (scaleV m c) (adjV m c) ⟨a, h.1⟩ ⟨b, h.2⟩ else 0

/-- The tile sum of point `8·I + s` is the sum of the contributions of the pairs in tile `(I, s)`. -/
theorem tileSum_eq (c : Dev nD) (I s : ℕ) (hI : I < 8) (hs : s < 8) :
    tileSum m c (8 * I + s) = ∑ p : Fin 512, ∑ q : Fin 512, pairTerm m c (512 * I + p.val) (512 * s + q.val) := by
  have hlt : 8 * I + s < cfg0.N := lt_of_lt_of_eq (by omega : 8 * I + s < 64) N_0.symm
  have h1 : (8 * I + s) / 8 = I := by omega
  have h2 : (8 * I + s) % 8 = s := by omega
  unfold tileSum
  rw [dif_pos hlt, sum_idx2]
  refine Finset.sum_congr rfl fun p _ => Finset.sum_congr rfl fun q _ => ?_
  have hp : 512 * ((⟨8 * I + s, hlt⟩ : Fin cfg0.N).val / 8) + p.val < 4096 := by
    show 512 * ((8 * I + s) / 8) + p.val < 4096
    have := p.isLt; omega
  have hq : 512 * ((⟨8 * I + s, hlt⟩ : Fin cfg0.N).val % 8) + q.val < 4096 := by
    show 512 * ((8 * I + s) % 8) + q.val < 4096
    have := q.isLt; omega
  rw [masked_at m c ⟨8 * I + s, hlt⟩ p q hp hq]
  unfold pairTerm
  have hpq : 512 * I + p.val < 4096 ∧ 512 * s + q.val < 4096 := by have := p.isLt; have := q.isLt; omega
  rw [dif_pos hpq]
  have ep : (⟨512 * ((⟨8 * I + s, hlt⟩ : Fin cfg0.N).val / 8) + p.val, hp⟩ : Fin 4096) = ⟨512 * I + p.val, hpq.1⟩ :=
    Fin.ext (by show 512 * ((8 * I + s) / 8) + p.val = 512 * I + p.val; rw [h1])
  have eq : (⟨512 * ((⟨8 * I + s, hlt⟩ : Fin cfg0.N).val % 8) + q.val, hq⟩ : Fin 4096) = ⟨512 * s + q.val, hpq.2⟩ :=
    Fin.ext (by show 512 * ((8 * I + s) % 8) + q.val = 512 * s + q.val; rw [h2])
  rw [ep, eq]

/-- The sum of the output array's entries, begun at zero, is the specification's total. -/
theorem kernel_total (c : Dev nD) :
    (0 : EReal) + ∑ j : S8x1x1.Idx, rowTotals m c j
      = Cert.Raa.total (latV m c) (biasV m c) (scaleV m c) (adjV m c) := by
  have e : ∀ j : S8x1x1.Idx, rowTotals m c j = (0 : EReal) + ∑ s ∈ Finset.range 8, ∑ p : Fin 512, ∑ q : Fin 512,
      pairTerm m c (512 * (j 0).val + p.val) (512 * s + q.val) := fun j => by
    unfold rowTotals
    exact congrArg ((0 : EReal) + ·)
      (Finset.sum_congr rfl fun s hs => tileSum_eq m c (j 0).val s (j 0).isLt (Finset.mem_range.mp hs))
  rw [Finset.sum_congr rfl fun j _ => e j]
  refine (Cert.Raa.KSums.tiles_total (pairTerm m c)).trans ?_
  unfold Cert.Raa.total
  refine Finset.sum_congr rfl fun i _ => Finset.sum_congr rfl fun j _ => ?_
  unfold pairTerm
  rw [dif_pos ⟨i.isLt, j.isLt⟩]

/-- The specification's arguments from the kernel's memory at launch. -/
abbrev latK (c : Dev nD) : Fin 4096 → Fin 8 → EReal := fun n k =>
  Cert.Raa.Latent.KM (m ((c.tc : Thread nD τ).loc main_arg3)) (m ((c.tc : Thread nD τ).loc main_arg4)) (ix2 n k)
abbrev biasK (c : Dev nD) : Fin 4096 → EReal := fun n =>
  (m ((c.tc : Thread nD τ).loc main_arg1) : (⟨S4096, .f32⟩ : BufTy).Contents (Elt Ideal)) (ix1 n)
abbrev scaleK (c : Dev nD) : EReal :=
  (m ((c.tc : Thread nD τ).loc main_arg2) : (⟨S1, .f32⟩ : BufTy).Contents (Elt Ideal)) (ix1 (0 : Fin 1))
abbrev adjK (c : Dev nD) : Fin 4096 → Fin 4096 → EReal := fun i j =>
  (m ((c.tc : Thread nD τ).loc main_arg0) : (⟨S4096x4096, .f32⟩ : BufTy).Contents (Elt Ideal)) (ix2 i j)

/-- What the region finds is what the host lines before it made of the inputs. -/
theorem args_eq (c : Dev nD) :
    Cert.Raa.total (latV m c) (biasV m c) (scaleV m c) (adjV m c)
      = Cert.Raa.total (latK m c) (biasK m c) (scaleK m c) (adjK m c) := by
  have e1 : latV m c = latK m c := funext fun n => funext fun k => by
    show (V m c main_v24 : S4096x8.Idx → EReal) (ix2 n k) = _
    rw [Cert.Raa.KHost.V_main_v24 m c]
  have e2 : biasV m c = biasK m c := funext fun n => Cert.Raa.KHost.V_main_v25_apply m c n
  have e3 : scaleV m c = scaleK m c := Cert.Raa.KHost.V_main_v26_apply m c
  have e4 : adjV m c = adjK m c := funext fun i => funext fun j => by
    show (V m c main_arg0 : S4096x4096.Idx → EReal) (ix2 i j) = _
    rw [V_main_arg0 m c]
  rw [e1, e2, e3, e4]

/-- THE KERNEL'S RUN: every weakly fair execution terminates with the result at the specification's total of the inputs
    and the inputs unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v28)
          = (fun _ => Cert.Raa.total (latK m c) (biasK m c) (scaleK m c) (adjK m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v28 (Pipeline.mem_restRefs_of main_v28 (by decide) (by decide))).trans
        ((tail_eq m c).trans (funext fun _ => (kernel_total m c).trans (args_eq m c))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue
end
-- ==== Proof.Finite.lean ====
/-
  From the precondition to real entries.

  The precondition evaluates, for each of the five input arrays, the conjunction over all entries of
  |x| < +∞, and asks the conjunction of the five results to be true. An extended real whose absolute value is
  below +∞ is a real, so under the precondition every entry of every input array is a real.
-/
import proofs.«100442_j10110353015379_1_alg».proof.Defs
import proofs.«100442_j10110353015379_1_alg».proof.Proof.Gen.KernelIdeal
import proofs.«100442_j10110353015379_1_alg».proof.Proof.Gen.Pre_finite_inputs
import proofs.«100442_j10110353015379_1_alg».proof.Proof.LibSegLinear
import Idealize.ShloMosaic.Lib.ReduceAll

noncomputable section

namespace Cert.Raa.Finite

open Idealize.ShloMosaic Idealize.SL.Sem Idealize.ShloMosaic.ValueIdx Idealize.ShloMosaic.FiniteEntries
  Idealize.ShloMosaic.SegLinear

/-- The five conjunctions being true makes every entry of the five arrays a real. -/
theorem real_of_finite_inputs [Cert.Pre_finite_inputs.Facts]
    (A : FVec Ideal Cert.Pre_finite_inputs.S4096x4096 .f32) (β : FVec Ideal Cert.Pre_finite_inputs.S4096 .f32)
    (a : FVec Ideal Cert.Pre_finite_inputs.S1 .f32) (Z : FVec Ideal Cert.Pre_finite_inputs.S8x4096 .f32)
    (C : FVec Ideal Cert.Pre_finite_inputs.S4096x8 .f32)
    (h : Cert.Pre_finite_inputs.fn (F := Ideal) A β a Z C = fun _ => 1#1) :
    (∀ i, IsReal (A i)) ∧ (∀ i, IsReal (β i)) ∧ (∀ i, IsReal (a i)) ∧ (∀ i, IsReal (Z i)) ∧ (∀ i, IsReal (C i)) := by
  have h0 := congrFun h ix0
  dsimp only [Cert.Pre_finite_inputs.fn, Cert.Pre_finite_inputs.fn_part1] at h0
  simp only [Idealize.ShloMosaic.andi] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨fun i => real_of_all A _ _ _ _ h0' i, fun i => real_of_all β _ _ _ _ h1 i, fun i => real_of_all a _ _ _ _ h2 i,
    fun i => real_of_all Z _ _ _ _ h3 i, fun i => real_of_all C _ _ _ _ h4 i⟩

/-- Under the precondition every entry of every input array of the second program is a real, on every device. -/
theorem real_inputs [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal ((m ((c.tc : Thread Cert.KernelIdeal.nD Cert.KernelIdeal.τ).loc Cert.KernelIdeal.main_arg0)
        : FVec Ideal Cert.Pre_finite_inputs.S4096x4096 .f32) i))
    ∧ (∀ i, IsReal ((m ((c.tc : Thread Cert.KernelIdeal.nD Cert.KernelIdeal.τ).loc Cert.KernelIdeal.main_arg1)
        : FVec Ideal Cert.Pre_finite_inputs.S4096 .f32) i))
    ∧ (∀ i, IsReal ((m ((c.tc : Thread Cert.KernelIdeal.nD Cert.KernelIdeal.τ).loc Cert.KernelIdeal.main_arg2)
        : FVec Ideal Cert.Pre_finite_inputs.S1 .f32) i))
    ∧ (∀ i, IsReal ((m ((c.tc : Thread Cert.KernelIdeal.nD Cert.KernelIdeal.τ).loc Cert.KernelIdeal.main_arg3)
        : FVec Ideal Cert.Pre_finite_inputs.S8x4096 .f32) i))
    ∧ (∀ i, IsReal ((m ((c.tc : Thread Cert.KernelIdeal.nD Cert.KernelIdeal.τ).loc Cert.KernelIdeal.main_arg4)
        : FVec Ideal Cert.Pre_finite_inputs.S4096x8 .f32) i)) :=
  real_of_finite_inputs _ _ _ _ _ (h c)

end Cert.Raa.Finite

end
-- ==== Proof.SpecReal.lean ====
/-
  Reals at the level of the specification.

  With real latent positions, biases, scale and adjacency entries, every quantity of a pair of nodes is a real:
  the shift is a finite number; the squared distance is a sum of squares of reals, hence a nonnegative real, so
  its square root is a real; theta is then a difference of reals; and softplus of a real x is the real
  max x 0 plus the logarithm of 1 + e^(-|x|), whose argument is a real above 1. So each contribution
  theta · A i j - softplus theta is a real, which is what lets the two orders of summation be compared.
-/
import proofs.«100442_j10110353015379_1_alg».proof.Proof.Spec
import proofs.«100442_j10110353015379_1_alg».proof.Proof.RealOps

noncomputable section

open scoped BigOperators

namespace Cert.Raa.Finite

open Idealize.ShloMosaic Idealize.ShloMosaic.FiniteEntries Idealize.ShloMosaic.SegLinear Cert.Raa

/-- A binary float pattern whose exponent field is not all ones denotes a real. -/
theorem isReal_ieee (e m : Nat) {w : Nat} (b : BitVec w) (h : (b.extractLsb' m e).toNat ≠ 2 ^ e - 1) :
    IsReal (Ideal.ieee e m b) := by
  unfold Ideal.ieee
  dsimp only
  rw [if_neg h]
  by_cases h0 : (b.extractLsb' m e).toNat = 0
  · rw [if_pos h0]; exact ⟨_, rfl⟩
  · rw [if_neg h0]; exact ⟨_, rfl⟩

/-- The shift is a real. -/
theorem isReal_shift : IsReal shift :=
  isReal_ieee 8 23 (0x358637BD#32 : BitVec 32) (by decide)

/-- The square root of a sum of squares of reals is a real. -/
theorem isReal_sqrt_sum_sq {ι : Type*} [Fintype ι] (d : ι → EReal) (hd : ∀ k, IsReal (d k)) :
    IsReal (Ideal.sqrt (∑ k, d k * d k)) := by
  choose d' hd' using hd
  simp only [hd', ← EReal.coe_mul, ← coe_sum]
  rw [Ideal.sqrt_coe, if_neg (not_lt.mpr (Finset.sum_nonneg fun k _ => mul_self_nonneg _))]
  exact isReal_coe _

/-- The logarithm of 1 + e^y is a real for real y. -/
theorem isReal_log1p_exp {y : EReal} (hy : IsReal y) : IsReal (Ideal.log1p (Ideal.exp y)) := by
  obtain ⟨s, rfl⟩ := hy
  have h1 : (1 : EReal) + Ideal.exp (s : EReal) = ((1 + Real.exp s : ℝ) : EReal) := by
    rw [EReal.coe_add, EReal.coe_one]; rfl
  unfold Ideal.log1p
  rw [h1, Ideal.log_coe, if_neg (not_le.mpr (by positivity))]
  exact isReal_coe _

/-- Softplus of a real is a real. -/
theorem isReal_softplus {x : EReal} (hx : IsReal x) : IsReal (softplus x) :=
  (hx.max isReal_zero).add (isReal_log1p_exp (isReal_neg (hx.max (isReal_neg hx))))

section Pair

variable (M : Fin 4096 → Fin 8 → EReal) (β : Fin 4096 → EReal) (a : EReal) (A : Fin 4096 → Fin 4096 → EReal)
  (hM : ∀ i k, IsReal (M i k)) (hβ : ∀ i, IsReal (β i)) (ha : IsReal a) (hA : ∀ i j, IsReal (A i j))

include hM in
/-- The squared distance's square root is a real. -/
theorem isReal_sqrt_sqdist (i j : Fin 4096) : IsReal (Ideal.sqrt (sqdist M i j)) :=
  isReal_sqrt_sum_sq (fun k => M i k - M j k + shift) fun k => (isReal_sub (hM i k) (hM j k)).add isReal_shift

include hM hβ ha in
/-- Theta is a real. -/
theorem isReal_theta (i j : Fin 4096) : IsReal (theta M β a i j) :=
  isReal_sub ((hβ i).add (hβ j)) (ha.mul (isReal_sqrt_sqdist M hM i j))

include hM hβ ha hA in
/-- Theta times the adjacency entry is a real. -/
theorem isReal_theta_mul (i j : Fin 4096) : IsReal (theta M β a i j * A i j) :=
  (isReal_theta M β a hM hβ ha i j).mul (hA i j)

include hM hβ ha in
/-- Softplus of theta is a real. -/
theorem isReal_softplus_theta (i j : Fin 4096) : IsReal (softplus (theta M β a i j)) :=
  isReal_softplus (isReal_theta M β a hM hβ ha i j)

include hM hβ ha hA in
/-- Every pair's contribution is a real. -/
theorem isReal_term (i j : Fin 4096) : IsReal (term M β a A i j) :=
  IsReal.ite isReal_zero (isReal_sub (isReal_theta_mul M β a A hM hβ ha hA i j) (isReal_softplus_theta M β a hM hβ ha i j))

end Pair

end Cert.Raa.Finite

end
-- ==== Proof.RefScatter.lean ====
/-
  An overwriting scatter of a constant along the diagonal of a square matrix.

  The host scatter folds over its updates in order; update j either lands on one entry of the operand, which the
  combiner then replaces, or is dropped. Here the combiner returns the update, every update has one value z, and every
  update lands inside the operand. Then the result is z wherever some update lands and the operand everywhere else,
  whatever the order of the fold.

  For the dimension numbers of this program — a 4096 × 4096 operand, a 4096 × 2 array of row and column numbers, one
  scalar update per row of that array, both operand axes named by the index vector, no window axes — update k lands on
  the entry whose row and column are the two numbers in row k of the index array, read as signed integers. When row k of
  the index array is (k, k), update k lands on the diagonal entry (k, k): the scatter puts z on the diagonal and keeps
  the operand off it.
-/
import proofs.«100442_j10110353015379_1_alg».proof.Proof.Gen.ReferenceIdeal
import Idealize.ShloMosaic.Lib.ValueIdx
import Idealize.ShloMosaic.Lib.Pipeline.Value

noncomputable section

namespace Cert.Raa.Ref

open Idealize.ShloMosaic Idealize.ShloMosaic.ValueIdx Cert.ReferenceIdeal Cert.ReferenceIdeal.Gen

variable {α : Type}

section Fold
variable {s si u : Shape} {w : Nat}

/-- An overwriting scatter with all updates equal to z, update j landing on the entry g j: an entry no update
    lands on keeps the operand's value, an entry some update lands on holds z. By induction along the fold over the
    updates, for every starting array. -/
theorem scatter_set_const (d : ScatterDims s si u) (x : s.Idx → α) (idx : IVec si w) (z : α)
    (g : u.Idx → s.Idx) (hg : ∀ j, d.resultIdx? j idx = some (g j)) (i' : s.Idx) :
    ((∀ j, g j ≠ i') → Host.scatter d (fun _ b => b) x idx (fun _ => z) i' = x i') ∧
    ((∃ j, g j = i') → Host.scatter d (fun _ b => b) x idx (fun _ => z) i' = z) := by
  unfold Host.scatter
  have hmiss : (∀ j, g j ≠ i') → ∀ n ∈ List.finRange u.numel, g (u.rowMajor.symm n) ≠ i' := fun h n _ => h _
  have hhit : (∃ j, g j = i') → ∃ n ∈ List.finRange u.numel, g (u.rowMajor.symm n) = i' := by
    rintro ⟨j, e⟩
    exact ⟨u.rowMajor j, List.mem_finRange _, by rw [Equiv.symm_apply_apply]; exact e⟩
  suffices H : ∀ (l : List (Fin u.numel)) (x : s.Idx → α),
      ((∀ n ∈ l, g (u.rowMajor.symm n) ≠ i') → (l.foldl _ x) i' = x i') ∧
      ((∃ n ∈ l, g (u.rowMajor.symm n) = i') → (l.foldl _ x) i' = z) from
    ⟨fun h => (H _ x).1 (hmiss h), fun h => (H _ x).2 (hhit h)⟩
  intro l
  induction l with
  | nil =>
    intro x
    exact ⟨fun _ => rfl, fun ⟨n, hn, _⟩ => absurd hn List.not_mem_nil⟩
  | cons a l ih =>
    intro x
    rw [List.foldl_cons]
    refine ⟨fun h => ?_, fun h => ?_⟩
    · -- no update of a :: l lands on i': neither the later ones nor a
      rw [(ih _).1 fun n hn => h n (List.mem_cons_of_mem _ hn)]
      simp only [hg]
      rw [if_neg (fun e => h a List.mem_cons_self e.symm)]
    · by_cases h1 : ∃ n ∈ l, g (u.rowMajor.symm n) = i'
      · -- a later update lands on i'
        exact (ih _).2 h1
      · -- only a lands on i': it writes z, and the later updates leave it
        have ha : g (u.rowMajor.symm a) = i' := by
          obtain ⟨n, hn, e⟩ := h
          rcases List.mem_cons.1 hn with rfl | hn
          · exact e
          · exact absurd ⟨n, hn, e⟩ h1
        rw [(ih _).1 fun n hn e => h1 ⟨n, hn, e⟩]
        simp only [hg]
        rw [if_pos ha.symm]

end Fold

section Diagonal

local notation "D" => scatter_S4096x4096_S4096x2_S4096_n_01_01_1

/-- A 32-bit word holding a number below 4096 reads as that number when read signed. -/
theorem toInt_ofNat_small (k : Nat) (h : k < 4096) : (BitVec.ofNat 32 k).toInt = (k : Int) := by
  rw [BitVec.toInt_eq_toNat_cond]
  simp [BitVec.toNat_ofNat]
  omega

/-- The landing row of update k is the first number in row k of the index array, read signed. -/
theorem start_zero (idx : IVec S4096x2 32) (k : Fin 4096) :
    ScatterDims.start D (ix1 k) idx (0 : Fin S4096x4096.rank) = (idx (ix2 k (0 : Fin 2))).toInt := by
  unfold ScatterDims.start
  rw [dif_pos (show (0 : Fin S4096x4096.rank) ∈ ScatterDims.scatterDimsToOperandDims D by decide)]
  refine congrArg (fun v => (idx v).toInt) (funext fun b => Fin.ext ?_)
  match b with
  | ⟨0, _⟩ => rfl
  | ⟨1, _⟩ => rfl

/-- The landing column of update k is the second number in row k of the index array, read signed. -/
theorem start_one (idx : IVec S4096x2 32) (k : Fin 4096) :
    ScatterDims.start D (ix1 k) idx (1 : Fin S4096x4096.rank) = (idx (ix2 k (1 : Fin 2))).toInt := by
  unfold ScatterDims.start
  rw [dif_pos (show (1 : Fin S4096x4096.rank) ∈ ScatterDims.scatterDimsToOperandDims D by decide)]
  refine congrArg (fun v => (idx v).toInt) (funext fun b => Fin.ext ?_)
  match b with
  | ⟨0, _⟩ => rfl
  | ⟨1, _⟩ => rfl

/-- Both operand axes are inserted ones: an update is one entry, with no offset inside a window. -/
theorem window_zero (j : S4096.Idx) : ScatterDims.window D j (0 : Fin S4096x4096.rank) = 0 := by
  unfold ScatterDims.window
  rw [dif_neg (show ¬ (0 : Fin S4096x4096.rank) ∈ ScatterDims.sKept D by decide)]

theorem window_one (j : S4096.Idx) : ScatterDims.window D j (1 : Fin S4096x4096.rank) = 0 := by
  unfold ScatterDims.window
  rw [dif_neg (show ¬ (1 : Fin S4096x4096.rank) ∈ ScatterDims.sKept D by decide)]

/-- When row k of the index array is (k, k), update k lands on the diagonal entry (k, k). -/
theorem landing (idx : IVec S4096x2 32)
    (hidx : ∀ (k : Fin 4096) (a : Fin 2), idx (ix2 k a) = BitVec.ofNat 32 k.val) (k : Fin 4096) :
    ScatterDims.resultIdx? D (ix1 k) idx = some (ix2 k k) := by
  have hs : ∀ a : Fin S4096x4096.rank,
      ScatterDims.start D (ix1 k) idx a + (ScatterDims.window D (ix1 k) a : Int) = (k.val : Int) := by
    intro a
    match a with
    | ⟨0, _⟩ =>
      refine (congrArg₂ (· + ·) (start_zero idx k) (congrArg Nat.cast (window_zero (ix1 k)))).trans ?_
      rw [hidx, toInt_ofNat_small _ k.isLt]; simp
    | ⟨1, _⟩ =>
      refine (congrArg₂ (· + ·) (start_one idx k) (congrArg Nat.cast (window_one (ix1 k)))).trans ?_
      rw [hidx, toInt_ofNat_small _ k.isLt]; simp
  unfold ScatterDims.resultIdx?
  have hin : ∀ a : Fin S4096x4096.rank,
      0 ≤ ScatterDims.start D (ix1 k) idx a + (ScatterDims.window D (ix1 k) a : Int) ∧
      ScatterDims.start D (ix1 k) idx a + (ScatterDims.window D (ix1 k) a : Int) < S4096x4096.size a := by
    intro a
    rw [hs a]
    have := k.isLt
    match a with
    | ⟨0, _⟩ => exact ⟨by omega, by show (k.val : Int) < ((4096 : Nat) : Int); omega⟩
    | ⟨1, _⟩ => exact ⟨by omega, by show (k.val : Int) < ((4096 : Nat) : Int); omega⟩
  rw [dif_pos hin]
  refine congrArg some (funext fun a => Fin.ext ?_)
  show (ScatterDims.start D (ix1 k) idx a + (ScatterDims.window D (ix1 k) a : Int)).toNat = _
  rw [hs a]
  match a with
  | ⟨0, _⟩ => simp
  | ⟨1, _⟩ => simp

/-- The scatter of this program, with an index array whose row k is (k, k) and updates all z, applied to any
    operand x: z on the diagonal, x off it. -/
theorem scatter_diag (x : S4096x4096.Idx → α) (idx : IVec S4096x2 32) (z : α)
    (hidx : ∀ (k : Fin 4096) (a : Fin 2), idx (ix2 k a) = BitVec.ofNat 32 k.val) (i j : Fin 4096) :
    Host.scatter D (fun _ b => b) x idx (fun _ => z) (ix2 i j) = if i = j then z else x (ix2 i j) := by
  have hg : ∀ jj : S4096.Idx, ScatterDims.resultIdx? D jj idx = some (ix2 (jj 0) (jj 0)) := fun jj =>
    (congrArg (fun v => ScatterDims.resultIdx? D v idx) (eq_ix1 jj)).trans (landing idx hidx (jj 0))
  by_cases h : i = j
  · subst h
    rw [if_pos rfl]
    exact (scatter_set_const D x idx z _ hg (ix2 i i)).2 ⟨ix1 i, rfl⟩
  · rw [if_neg h]
    refine (scatter_set_const D x idx z _ hg (ix2 i j)).1 fun jj e => h ?_
    exact (show jj 0 = i from congrFun e 0).symm.trans (show jj 0 = j from congrFun e 1)

end Diagonal

end Cert.Raa.Ref

end
-- ==== Proof.RefStages.lean ====
/-
  The reference's intermediate arrays, read entry by entry.

  * The index array of each of the two scatters is two copies of the row numbers 0 … 4095 side by side (a row number is
    never negative, so the "add 4096 to a negative index" branch is never taken): row k of it is (k, k).
  * Hence each scatter writes its update, zero, on the diagonal and keeps its operand elsewhere.
  * The operand of the first scatter, at (i, j), is β i + β j − a · √(Σ_k (M i k − M j k + shift)²), with M the latent
    positions: the quantity called theta in the specification.
  * The operand of the second scatter is softplus of that, written max x 0 + log(1 + e^(−|x|)); the guard in front of it
    compares x − 0 with itself for inequality, which never holds on the extended reals.
-/
import proofs.«100442_j10110353015379_1_alg».proof.Proof.Gen.ReferenceIdeal.Read
import proofs.«100442_j10110353015379_1_alg».proof.Proof.Spec
import proofs.«100442_j10110353015379_1_alg».proof.Proof.LibSegLinear
import proofs.«100442_j10110353015379_1_alg».proof.Proof.RefScatter
import Idealize.ShloMosaic.Lib.ValueIdx
import Idealize.ShloMosaic.Lib.Pipeline.Value
import Idealize.ShloMosaic.PureOps.Ideal.Laws

noncomputable section

open scoped BigOperators

namespace Cert.Raa.Ref

open Idealize.ShloMosaic Idealize.ShloMosaic.ValueIdx Idealize.ShloMosaic.SegLinear Idealize.SL.Sem
open Cert.ReferenceIdeal Cert.ReferenceIdeal.Gen Cert.ReferenceIdeal.Read

section IndexArray
variable {F : FTy → Type} [FloatOps F]

/-- A word holding a number below 4096 is not negative. -/
theorem slt_zero_small (k : Nat) (h : k < 4096) : IntOp.cmpi .slt (BitVec.ofNat 32 k) 0#32 = 0#1 := by
  have hk : ¬ ((k : Int) < 0) := by omega
  simp [IntOp.cmpi, BitVec.slt, toInt_ofNat_small k h, hk]

/-- Each of the four wrapped copies of the row numbers is the row numbers: entry k is k. -/
theorem v50_at (k : Fin 4096) : val_main_v50 (F := F) (ix1 k) = BitVec.ofNat 32 k.val := by
  rw [val_main_v50_apply, val_main_v47_apply, val_main_v45_apply, val_main_v46_apply, val_main_c_apply]
  show Scalar.select (IntOp.cmpi .slt (BitVec.ofNat 32 k.val) 0#32) _ _ = _
  rw [slt_zero_small _ k.isLt, select_zero]

theorem v55_at (k : Fin 4096) : val_main_v55 (F := F) (ix1 k) = BitVec.ofNat 32 k.val := by
  rw [val_main_v55_apply, val_main_v52_apply, val_main_v45_apply, val_main_v51_apply, val_main_c_8_apply]
  show Scalar.select (IntOp.cmpi .slt (BitVec.ofNat 32 k.val) 0#32) _ _ = _
  rw [slt_zero_small _ k.isLt, select_zero]

theorem v65_at (k : Fin 4096) : val_main_v65 (F := F) (ix1 k) = BitVec.ofNat 32 k.val := by
  rw [val_main_v65_apply, val_main_v62_apply, val_main_v45_apply, val_main_v61_apply, val_main_c_11_apply]
  show Scalar.select (IntOp.cmpi .slt (BitVec.ofNat 32 k.val) 0#32) _ _ = _
  rw [slt_zero_small _ k.isLt, select_zero]

theorem v70_at (k : Fin 4096) : val_main_v70 (F := F) (ix1 k) = BitVec.ofNat 32 k.val := by
  rw [val_main_v70_apply, val_main_v67_apply, val_main_v45_apply, val_main_v66_apply, val_main_c_13_apply]
  show Scalar.select (IntOp.cmpi .slt (BitVec.ofNat 32 k.val) 0#32) _ _ = _
  rw [slt_zero_small _ k.isLt, select_zero]

/-- Two columns side by side: column 0 of the result is the first column. -/
theorem two_columns_left (p q : S4096x1.Idx → BitVec 32) (k : Fin 4096) :
    concatenate S4096x2 1 [⟨S4096x1, p⟩, ⟨S4096x1, q⟩] concatenates_S4096x1_S4096x1_S4096x2_d1 (ix2 k (0 : Fin 2))
      = p (ix2 k (0 : Fin 1)) :=
  concatenate_pair_apply_left (1 : Fin S4096x2.rank) p q concatenates_S4096x1_S4096x1_S4096x2_d1 _ rfl
    (ix2 k (0 : Fin 1)) (fun b => match b with | ⟨0, _⟩ => rfl | ⟨1, _⟩ => rfl)

/-- Column 1 of the result is the second column. -/
theorem two_columns_right (p q : S4096x1.Idx → BitVec 32) (k : Fin 4096) :
    concatenate S4096x2 1 [⟨S4096x1, p⟩, ⟨S4096x1, q⟩] concatenates_S4096x1_S4096x1_S4096x2_d1 (ix2 k (1 : Fin 2))
      = q (ix2 k (0 : Fin 1)) :=
  concatenate_pair_apply_right (1 : Fin S4096x2.rank) p q concatenates_S4096x1_S4096x1_S4096x2_d1 _ rfl rfl
    (ix2 k (0 : Fin 1)) (fun b hb => match b, hb with | ⟨0, _⟩, _ => rfl | ⟨1, _⟩, hb => absurd rfl hb) rfl

/-- Row k of the first scatter's index array is (k, k). -/
theorem v58_at (k : Fin 4096) (a : Fin 2) : val_main_v58 (F := F) (ix2 k a) = BitVec.ofNat 32 k.val := by
  have e1 : idx_main_v56 (ix2 k (0 : Fin 1)) = ix1 k := funext fun b => match b with | ⟨0, _⟩ => rfl
  have e2 : idx_main_v57 (ix2 k (0 : Fin 1)) = ix1 k := funext fun b => match b with | ⟨0, _⟩ => rfl
  unfold val_main_v58
  match a with
  | ⟨0, _⟩ =>
    refine (two_columns_left _ _ k).trans ?_
    rw [val_main_v56_apply, e1, v50_at]
  | ⟨1, _⟩ =>
    refine (two_columns_right _ _ k).trans ?_
    rw [val_main_v57_apply, e2, v55_at]

/-- Row k of the second scatter's index array is (k, k). -/
theorem v73_at (k : Fin 4096) (a : Fin 2) : val_main_v73 (F := F) (ix2 k a) = BitVec.ofNat 32 k.val := by
  have e1 : idx_main_v71 (ix2 k (0 : Fin 1)) = ix1 k := funext fun b => match b with | ⟨0, _⟩ => rfl
  have e2 : idx_main_v72 (ix2 k (0 : Fin 1)) = ix1 k := funext fun b => match b with | ⟨0, _⟩ => rfl
  unfold val_main_v73
  match a with
  | ⟨0, _⟩ =>
    refine (two_columns_left _ _ k).trans ?_
    rw [val_main_v71_apply, e1, v65_at]
  | ⟨1, _⟩ =>
    refine (two_columns_right _ _ k).trans ?_
    rw [val_main_v72_apply, e2, v70_at]

end IndexArray

section Scatters

/-- The updates of both scatters are all zero. -/
theorem v59_zero : val_main_v59 (F := Ideal) = fun _ => (0 : EReal) := funext fun i => by
  rw [val_main_v59_apply, val_main_cst_10_apply]; exact Ideal.ofBits_zero_f32

theorem v74_zero : val_main_v74 (F := Ideal) = fun _ => (0 : EReal) := funext fun i => by
  rw [val_main_v74_apply, val_main_cst_15_apply]; exact Ideal.ofBits_zero_f32

/-- The first scatter's result: zero on the diagonal, its operand off it. -/
theorem v60_at (x1 : (⟨S4096, .f32⟩ : BufTy).Contents (Elt Ideal)) (x2 : (⟨S1, .f32⟩ : BufTy).Contents (Elt Ideal))
    (x3 : (⟨S8x4096, .f32⟩ : BufTy).Contents (Elt Ideal)) (x4 : (⟨S4096x8, .f32⟩ : BufTy).Contents (Elt Ideal)) (i j : Fin 4096) :
    val_main_v60 (F := Ideal) x1 x2 x3 x4 (ix2 i j) = if i = j then (0 : EReal) else val_main_v43 (F := Ideal) x1 x2 x3 x4 (ix2 i j) := by
  unfold val_main_v60
  rw [v59_zero]
  exact scatter_diag _ _ (0 : EReal) (fun k a => v58_at k a) i j

/-- The second scatter's result: zero on the diagonal, its operand off it. -/
theorem v75_at (x1 : (⟨S4096, .f32⟩ : BufTy).Contents (Elt Ideal)) (x2 : (⟨S1, .f32⟩ : BufTy).Contents (Elt Ideal))
    (x3 : (⟨S8x4096, .f32⟩ : BufTy).Contents (Elt Ideal)) (x4 : (⟨S4096x8, .f32⟩ : BufTy).Contents (Elt Ideal)) (i j : Fin 4096) :
    val_main_v75 (F := Ideal) x1 x2 x3 x4 (ix2 i j) = if i = j then (0 : EReal) else val_main_v44 (F := Ideal) x1 x2 x3 x4 (ix2 i j) := by
  unfold val_main_v75
  rw [v74_zero]
  exact scatter_diag _ _ (0 : EReal) (fun k a => v73_at k a) i j

end Scatters

section Stages

variable (x1 : (⟨S4096, .f32⟩ : BufTy).Contents (Elt Ideal)) (x2 : (⟨S1, .f32⟩ : BufTy).Contents (Elt Ideal))
    (x3 : (⟨S8x4096, .f32⟩ : BufTy).Contents (Elt Ideal)) (x4 : (⟨S4096x8, .f32⟩ : BufTy).Contents (Elt Ideal))

/-- The sum of the two nodes' biases. -/
theorem v4_at (i j : Fin 4096) : val_main_v4 (F := Ideal) x1 (ix2 i j) = x1 (ix1 i) + x1 (ix1 j) := by
  have e0 : idx_main_v0 (idx_main_v2 (ix2 i j)) = ix1 i := funext fun b => match b with | ⟨0, _⟩ => rfl
  have e1 : idx_main_v1 (idx_main_v3 (ix2 i j)) = ix1 j := funext fun b => match b with | ⟨0, _⟩ => rfl
  rw [val_main_v4_apply, val_main_v2_apply, val_main_v0_apply, val_main_v3_apply, val_main_v1_apply, e0, e1]
  rfl

/-- The scale, a one-element array read as a scalar and repeated everywhere. -/
theorem v41_at (i : S4096x4096.Idx) : val_main_v41 (F := Ideal) x2 i = x2 (ix1 (0 : Fin 1)) := by
  rw [val_main_v41_apply]
  unfold val_main_v40
  refine shapeCast_apply x2 shapeCasts_S1_S_ _ (ix1 (0 : Fin 1)) ?_
  have h1 : (S_.rowMajor (idx_main_v41 i)).val < S_.numel := (S_.rowMajor (idx_main_v41 i)).isLt
  have h2 : S_.numel = 1 := by decide
  rw [Shape.rowMajor_val_one]
  show (0 : Nat) = _
  omega

/-- The square of the shifted difference of coordinate k of rows i and j of the latent positions. -/
theorem v37_at (i j : Fin 4096) (k : Fin 8) :
    val_main_v37 (F := Ideal) x3 x4 (idx_main_v38 (ix2 i j) k)
      = (val_main_v29 (F := Ideal) x3 x4 (ix2 i k) - val_main_v29 (F := Ideal) x3 x4 (ix2 j k) + Cert.Raa.shift)
        * (val_main_v29 (F := Ideal) x3 x4 (ix2 i k) - val_main_v29 (F := Ideal) x3 x4 (ix2 j k) + Cert.Raa.shift) := by
  have eL : idx_main_v30 (idx_main_v32 (idx_main_v38 (ix2 i j) k)) = ix2 i k :=
    funext fun b => match b with | ⟨0, _⟩ => rfl | ⟨1, _⟩ => rfl
  have eR : idx_main_v31 (idx_main_v33 (idx_main_v38 (ix2 i j) k)) = ix2 j k :=
    funext fun b => match b with | ⟨0, _⟩ => rfl | ⟨1, _⟩ => rfl
  rw [val_main_v37_apply, val_main_v36_apply, val_main_v34_apply, val_main_v32_apply, val_main_v30_apply,
    val_main_v33_apply, val_main_v31_apply, val_main_v35_apply, val_main_cst_5_apply, eL, eR]
  rfl

/-- The first scatter's operand at (i, j) is the specification's theta. -/
theorem v43_at (i j : Fin 4096) :
    val_main_v43 (F := Ideal) x1 x2 x3 x4 (ix2 i j)
      = Cert.Raa.theta (fun i k => val_main_v29 (F := Ideal) x3 x4 (ix2 i k)) (fun i => x1 (ix1 i)) (x2 (ix1 (0 : Fin 1))) i j := by
  rw [val_main_v43_apply, v4_at, val_main_v42_apply, v41_at, val_main_v39_apply, val_main_v38_apply, val_main_cst_6_apply,
    Finset.sum_congr rfl fun k _ => v37_at x3 x4 i j k]
  unfold Cert.Raa.theta Cert.Raa.sqdist
  simp only [Ideal.subf_def, Ideal.mulf_def, Ideal.hostUnary_sqrt_def, Ideal.ofBits_def, Ideal.ofBits_zero_f32, zero_add]

/-- No extended real differs from itself. -/
theorem cmp_une_self (y : EReal) : Ideal.cmp .une y y = 0#1 := by simp [Ideal.cmp]

/-- The second scatter's operand is the specification's softplus of the first's. -/
theorem v44_at (i : S4096x4096.Idx) :
    val_main_v44 (F := Ideal) x1 x2 x3 x4 i = Cert.Raa.softplus (val_main_v43 (F := Ideal) x1 x2 x3 x4 i) := by
  rw [val_main_v44_apply, val_main_call0_v4_apply, Ideal.cmpf_def, cmp_une_self, select_zero,
    val_main_call0_v11_apply, val_main_call0_v1_apply, val_main_call0_v10_apply, val_main_call0_v9_apply,
    val_main_call0_v8_apply, val_main_call0_v7_apply, val_main_call0_v3_apply, val_main_call0_v0_apply,
    val_main_call0_v2_apply, val_main_call0_cst_apply]
  unfold Cert.Raa.softplus
  simp only [Ideal.addf_def, Ideal.maximumf_def, Ideal.hostUnary_log1p_def, Ideal.hostUnary_exp_def, Ideal.hostNegf_def,
    Ideal.hostAbsf_def, Ideal.negf_def, Ideal.absf_def, Ideal.subf_def, Ideal.ofBits_def, Ideal.ofBits_zero_f32, sub_zero]

end Stages

end Cert.Raa.Ref

end
-- ==== Proof.RefTotal.lean ====
/-
  The reference's result is the specification's total.

  The reference multiplies the diagonal-zeroed theta by the adjacency matrix and sums over all pairs, sums the
  diagonal-zeroed softplus over all pairs, and subtracts the second sum from the first; both sums begin at zero. A sum over
  the pairs is the double sum over rows and columns. On the diagonal the two summands are 0 · A i i = 0 (zero times any
  extended real is zero) and 0; off it they are theta · A and softplus theta, real numbers by hypothesis. For real
  summands the difference of the sums is the sum of the differences (an identity of real numbers carried through the
  embedding), and the difference at (i, j) is the specification's contribution of the pair: nothing on the diagonal,
  theta · A − softplus theta off it.
-/
import proofs.«100442_j10110353015379_1_alg».proof.Proof.RefStages

noncomputable section

open scoped BigOperators

namespace Cert.Raa.Ref

open Idealize.ShloMosaic Idealize.ShloMosaic.ValueIdx Idealize.ShloMosaic.SegLinear Idealize.ShloMosaic.FiniteEntries
open Idealize.SL.Sem
open Cert.ReferenceIdeal Cert.ReferenceIdeal.Gen Cert.ReferenceIdeal.Read

/-- For real terms, the difference of two double sums, each begun at zero, is the double sum of the differences:
    both sides are the embedding of one real number. -/
theorem sum_sub_sum {n : Nat} (t s : Fin n → Fin n → EReal) (ht : ∀ i j, IsReal (t i j)) (hs : ∀ i j, IsReal (s i j)) :
    ((0 : EReal) + ∑ i, ∑ j, t i j) - ((0 : EReal) + ∑ i, ∑ j, s i j) = ∑ i, ∑ j, (t i j - s i j) := by
  choose tr htr using ht
  choose sr hsr using hs
  simp only [htr, hsr, ← EReal.coe_sub, ← coe_sum, zero_add]
  exact congrArg _ (by simp only [Finset.sum_sub_distrib])

section Total

variable (x0 : (⟨S4096x4096, .f32⟩ : BufTy).Contents (Elt Ideal)) (x1 : (⟨S4096, .f32⟩ : BufTy).Contents (Elt Ideal))
    (x2 : (⟨S1, .f32⟩ : BufTy).Contents (Elt Ideal)) (x3 : (⟨S8x4096, .f32⟩ : BufTy).Contents (Elt Ideal))
    (x4 : (⟨S4096x8, .f32⟩ : BufTy).Contents (Elt Ideal))

local notation "θ" => Cert.Raa.theta (fun i k => val_main_v29 (F := Ideal) x3 x4 (ix2 i k)) (fun i => x1 (ix1 i)) (x2 (ix1 (0 : Fin 1)))

/-- The last stage, as a function of the five argument arrays, is the specification's total. -/
theorem v79_total
    (hT : ∀ i j, i ≠ j → IsReal (θ i j * x0 (ix2 i j)))
    (hS : ∀ i j, i ≠ j → IsReal (Cert.Raa.softplus (θ i j))) :
    val_main_v79 (F := Ideal) x0 x1 x2 x3 x4
      = fun _ => Cert.Raa.total (fun i k => val_main_v29 (F := Ideal) x3 x4 (ix2 i k)) (fun i => x1 (ix1 i))
          (x2 (ix1 (0 : Fin 1))) (fun i j => x0 (ix2 i j)) := by
  funext q
  rw [val_main_v79_apply, val_main_v77_apply, val_main_v78_apply, val_main_cst_16_apply, val_main_cst_17_apply,
    sum_idx2, sum_idx2]
  simp only [val_main_v76_apply, v60_at, v75_at, v44_at, v43_at, Ideal.subf_def, Ideal.mulf_def, Ideal.ofBits_def,
    Ideal.ofBits_zero_f32]
  have ht : ∀ i j : Fin 4096, IsReal ((if i = j then (0 : EReal) else θ i j) * x0 (ix2 i j)) := fun i j => by
    by_cases h : i = j
    · rw [if_pos h, zero_mul]; exact isReal_zero
    · rw [if_neg h]; exact hT i j h
  have hs : ∀ i j : Fin 4096, IsReal (if i = j then (0 : EReal) else Cert.Raa.softplus (θ i j)) := fun i j => by
    by_cases h : i = j
    · rw [if_pos h]; exact isReal_zero
    · rw [if_neg h]; exact hS i j h
  refine (sum_sub_sum (fun i j => (if i = j then (0 : EReal) else θ i j) * x0 (ix2 i j))
    (fun i j => if i = j then (0 : EReal) else Cert.Raa.softplus (θ i j)) ht hs).trans ?_
  unfold Cert.Raa.total
  refine Finset.sum_congr rfl fun i _ => Finset.sum_congr rfl fun j _ => ?_
  unfold Cert.Raa.term
  by_cases h : i = j
  · simp only [if_pos h, zero_mul, sub_zero]
  · simp only [if_neg h]

end Total

section Run

variable (m' : (ℓ : Loc nD τ sig) → Buf (Elt Ideal) ℓ) (c : Dev nD)

/-- The adjacency matrix, the biases, the scale and the latent positions as the reference finds them in memory. -/
abbrev Ar : Fin 4096 → Fin 4096 → EReal := fun i j =>
  (m' ((c.tc : Thread nD τ).loc main_arg0) : (⟨S4096x4096, .f32⟩ : BufTy).Contents (Elt Ideal)) (ix2 i j)
abbrev βr : Fin 4096 → EReal := fun i =>
  (m' ((c.tc : Thread nD τ).loc main_arg1) : (⟨S4096, .f32⟩ : BufTy).Contents (Elt Ideal)) (ix1 i)
abbrev ar : EReal :=
  (m' ((c.tc : Thread nD τ).loc main_arg2) : (⟨S1, .f32⟩ : BufTy).Contents (Elt Ideal)) (ix1 (0 : Fin 1))
abbrev Mr : Fin 4096 → Fin 8 → EReal := fun i k =>
  val_main_v29 (F := Ideal) (m' ((c.tc : Thread nD τ).loc main_arg3)) (m' ((c.tc : Thread nD τ).loc main_arg4)) (ix2 i k)

/-- The reference's result is the specification's total, given that off the diagonal every product theta · A and
    every softplus of theta is a real number. -/
theorem ref_total'
    (hT : ∀ i j, i ≠ j → IsReal (Cert.Raa.theta (Mr m' c) (βr m' c) (ar m' c) i j * Ar m' c i j))
    (hS : ∀ i j, i ≠ j → IsReal (Cert.Raa.softplus (Cert.Raa.theta (Mr m' c) (βr m' c) (ar m' c) i j))) :
    Cert.ReferenceIdeal.Value.res_main_v79 (F := Ideal) m' c
      = fun _ => Cert.Raa.total (Mr m' c) (βr m' c) (ar m' c) (Ar m' c) := by
  rw [val_main_v79_eq]
  exact v79_total _ _ _ _ _ hT hS

/-- The same with the two facts asked of every pair. -/
theorem ref_total
    (hT : ∀ i j, IsReal (Cert.Raa.theta (Mr m' c) (βr m' c) (ar m' c) i j * Ar m' c i j))
    (hS : ∀ i j, IsReal (Cert.Raa.softplus (Cert.Raa.theta (Mr m' c) (βr m' c) (ar m' c) i j))) :
    Cert.ReferenceIdeal.Value.res_main_v79 (F := Ideal) m' c
      = fun _ => Cert.Raa.total (Mr m' c) (βr m' c) (ar m' c) (Ar m' c) :=
  ref_total' m' c (fun i j _ => hT i j) (fun i j _ => hS i j)

end Run

end Cert.Raa.Ref

end
-- ==== Proof.Bridge.lean ====
/-
  The first program's result, stated over the second program's memory.

  The two programs start from memories that agree on the five argument arrays, and the precondition makes every
  entry of these arrays a real. The first program's result is the specification's total of its own latent
  positions, biases, scale and adjacency matrix, as soon as every pair's theta · A and softplus theta are reals —
  which they are, the latent positions being sums of products of softmax weights of real inputs. Its biases, scale
  and adjacency matrix are the second program's because the memories agree, and its latent positions are the
  second program's, entry by entry, because for real weights the two orders of multiplying the three matrices
  agree.
-/
import proofs.«100442_j10110353015379_1_alg».proof.Defs
import proofs.«100442_j10110353015379_1_alg».proof.Proof.Finite
import proofs.«100442_j10110353015379_1_alg».proof.Proof.Latent
import proofs.«100442_j10110353015379_1_alg».proof.Proof.SpecReal
import proofs.«100442_j10110353015379_1_alg».proof.Proof.RefTotal

noncomputable section

namespace Cert.Raa.Bridge

open Idealize.ShloMosaic Idealize.SL.Sem Idealize.ShloMosaic.ValueIdx Idealize.ShloMosaic.SegLinear

variable [hKernelIdeal : Cert.KernelIdeal.Facts] [hReferenceIdeal : Cert.ReferenceIdeal.Facts]
  [hPre_finite_inputs : Cert.Pre_finite_inputs.Facts]

/-- The first program's result is the specification's total of the second program's latent positions and of the
    second program's biases, scale and adjacency matrix. -/
theorem ref_result
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (c : Dev Cert.KernelIdeal.nD) :
    Cert.ReferenceIdeal.Value.res_main_v79 (F := Ideal) m' c
      = fun _ => Cert.Raa.total
          (fun n k => Cert.Raa.Latent.KM (m ((c.tc : Thread Cert.KernelIdeal.nD Cert.KernelIdeal.τ).loc Cert.KernelIdeal.main_arg3))
            (m ((c.tc : Thread Cert.KernelIdeal.nD Cert.KernelIdeal.τ).loc Cert.KernelIdeal.main_arg4)) (ix2 n k))
          (fun n => (m ((c.tc : Thread Cert.KernelIdeal.nD Cert.KernelIdeal.τ).loc Cert.KernelIdeal.main_arg1)
            : (⟨Cert.KernelIdeal.S4096, .f32⟩ : BufTy).Contents (Elt Ideal)) (ix1 n))
          ((m ((c.tc : Thread Cert.KernelIdeal.nD Cert.KernelIdeal.τ).loc Cert.KernelIdeal.main_arg2)
            : (⟨Cert.KernelIdeal.S1, .f32⟩ : BufTy).Contents (Elt Ideal)) (ix1 (0 : Fin 1)))
          (fun i j => (m ((c.tc : Thread Cert.KernelIdeal.nD Cert.KernelIdeal.τ).loc Cert.KernelIdeal.main_arg0)
            : (⟨Cert.KernelIdeal.S4096x4096, .f32⟩ : BufTy).Contents (Elt Ideal)) (ix2 i j)) := by
  obtain ⟨h0, h1, h2, h3, h4⟩ := hagree c
  obtain ⟨rA, rβ, ra, rZ, rC⟩ := Cert.Raa.Finite.real_inputs m hpre c
  -- the four arguments of the total, on the first program's side, are the second program's
  have eA : Cert.Raa.Ref.Ar m' c = fun i j => (m ((c.tc : Thread Cert.KernelIdeal.nD Cert.KernelIdeal.τ).loc Cert.KernelIdeal.main_arg0)
      : (⟨Cert.KernelIdeal.S4096x4096, .f32⟩ : BufTy).Contents (Elt Ideal)) (ix2 i j) :=
    funext fun i => funext fun j => congrFun h0 (ix2 i j)
  have eβ : Cert.Raa.Ref.βr m' c = fun n => (m ((c.tc : Thread Cert.KernelIdeal.nD Cert.KernelIdeal.τ).loc Cert.KernelIdeal.main_arg1)
      : (⟨Cert.KernelIdeal.S4096, .f32⟩ : BufTy).Contents (Elt Ideal)) (ix1 n) :=
    funext fun n => congrFun h1 (ix1 n)
  have ea : Cert.Raa.Ref.ar m' c = (m ((c.tc : Thread Cert.KernelIdeal.nD Cert.KernelIdeal.τ).loc Cert.KernelIdeal.main_arg2)
      : (⟨Cert.KernelIdeal.S1, .f32⟩ : BufTy).Contents (Elt Ideal)) (ix1 (0 : Fin 1)) :=
    congrFun h2 (ix1 (0 : Fin 1))
  have eM : Cert.Raa.Ref.Mr m' c = fun n k => Cert.Raa.Latent.KM (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (ix2 n k) :=
    funext fun n => funext fun k => by
      show Cert.ReferenceIdeal.Read.val_main_v29 (F := Ideal) _ _ (ix2 n k) = _
      rw [h3, h4]
      exact (Cert.Raa.Latent.KM_eq_ref _ _ rZ rC n k).symm
  -- every quantity of a pair is a real
  have hM : ∀ i k, IsReal (Cert.Raa.Ref.Mr m' c i k) := fun i k => by
    show IsReal (Cert.ReferenceIdeal.Read.val_main_v29 (F := Ideal) _ _ (ix2 i k))
    rw [h3, h4]
    exact Cert.Raa.Latent.isReal_M _ _ rZ rC _
  have hβ : ∀ i, IsReal (Cert.Raa.Ref.βr m' c i) := fun i => by rw [eβ]; exact rβ _
  have ha : IsReal (Cert.Raa.Ref.ar m' c) := by rw [ea]; exact ra _
  have hA : ∀ i j, IsReal (Cert.Raa.Ref.Ar m' c i j) := fun i j => by rw [eA]; exact rA _
  refine (Cert.Raa.Ref.ref_total m' c
    (fun i j => Cert.Raa.Finite.isReal_theta_mul _ _ _ _ hM hβ ha hA i j)
    (fun i j => Cert.Raa.Finite.isReal_softplus_theta _ _ _ hM hβ ha i j)).trans ?_
  rw [eM, eβ, ea, eA]

end Cert.Raa.Bridge

end
-- ==== Proof.lean ====
/-
  The kernel and its reference compute one number on the extended reals, when every input entry is finite.

  Both programs take the column softmaxes `Zs` of `Z` (8 × 4096) and `Cs` of `C` (4096 × 8) and form latent positions
  `M` (4096 × 8): the reference as the transpose of `Zs · (Cs · Zs)`, the kernel's host code as the transpose of
  `(Zs · Cs) · Zs`. For every ordered pair of nodes `i ≠ j` they form `theta = β i + β j - a · √(Σ_k (M i k - M j k + shift)²)`
  and the contribution `theta · A i j - softplus theta`, and the result is the sum of the contributions.

  The reference zeroes the diagonals of `theta` and of `softplus theta` by two scatters and subtracts the sum of the
  second array from the sum of the first times `A`; the kernel walks the 8 × 8 tiles of 512 × 512 pairs, masks the
  diagonal entries of each tile, adds each tile's sum to a running total per row of tiles, and its host code adds the
  eight totals. With real entries the two products of three matrices agree (associativity, proved over the reals and
  carried back), a difference of two finite sums of reals is the sum of the differences, and regrouping a finite sum by
  tiles needs only commutativity and associativity. Finiteness of the inputs makes every entry along the way a real:
  the softmaxes (a quotient by a positive sum of exponentials), the latent positions, `theta` (the square root is of a
  sum of squares) and `softplus theta`.

  The three frames are the generated runs; nothing was rewritten between the kernel and its idealization.
-/
import proofs.«100442_j10110353015379_1_alg».proof.Defs
import proofs.«100442_j10110353015379_1_alg».proof.Proof.Gen.Kernel
import proofs.«100442_j10110353015379_1_alg».proof.Proof.Gen.Kernel.Skeleton
import proofs.«100442_j10110353015379_1_alg».proof.Proof.Gen.Kernel.Launch
import proofs.«100442_j10110353015379_1_alg».proof.Proof.Gen.Kernel.Points
import proofs.«100442_j10110353015379_1_alg».proof.Proof.Gen.Kernel.Frame
import proofs.«100442_j10110353015379_1_alg».proof.Proof.Gen.KernelIdeal
import proofs.«100442_j10110353015379_1_alg».proof.Proof.Gen.KernelIdeal.Skeleton
import proofs.«100442_j10110353015379_1_alg».proof.Proof.Gen.KernelIdeal.Launch
import proofs.«100442_j10110353015379_1_alg».proof.Proof.Gen.KernelIdeal.Points
import proofs.«100442_j10110353015379_1_alg».proof.Proof.Gen.KernelIdeal.Frame
import proofs.«100442_j10110353015379_1_alg».proof.Proof.Gen.ReferenceIdeal
import proofs.«100442_j10110353015379_1_alg».proof.Proof.Gen.Pre_finite_inputs
import proofs.«100442_j10110353015379_1_alg».proof.Proof.Gen.ReferenceIdeal.Run
import proofs.«100442_j10110353015379_1_alg».proof.Proof.Gen.ReferenceIdeal.Read
import proofs.«100442_j10110353015379_1_alg».proof.Proof.KRun
import proofs.«100442_j10110353015379_1_alg».proof.Proof.Bridge
import Idealize.ShloMosaic.Adequacy
import Idealize.ShloMosaic.Init

noncomputable section

namespace Cert.Proof

open Idealize.ShloMosaic Idealize.SL.Sem

/-- The kernel at the word level runs and keeps its arguments: the generated frame. -/
theorem frame_kernel : Cert.frame_Kernel (hKernel := Cert.Kernel.Gen.facts) (hPre_finite_inputs := Cert.Pre_finite_inputs.Gen.facts) :=
  fun m ρ _ => Cert.Kernel.Gen.frame m ρ

/-- So does its reading on the extended reals. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its generated run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- On the extended reals, from memories that agree on finite inputs, both programs end at the sum over all ordered
    pairs of distinct nodes of `theta · A - softplus theta`, the latent positions taken as the kernel's host code forms
    them: the kernel by its tiles, the reference because its latent positions and its difference of two sums are the
    same numbers when every entry is real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.Raa.total (Cert.KernelIdeal.KValue.latK m c) (Cert.KernelIdeal.KValue.biasK m c)
      (Cert.KernelIdeal.KValue.scaleK m c) (Cert.KernelIdeal.KValue.adjK m c),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  exact Cert.Raa.Bridge.ref_result m m' hpre hagree c

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
